-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16000x100x4 : Shape := ⟨3, ![16000, 100, 4]⟩
abbrev S16000x3 : Shape := ⟨2, ![16000, 3]⟩
abbrev S16000 : Shape := ⟨1, ![16000]⟩
abbrev S64x9 : Shape := ⟨2, ![64, 9]⟩
abbrev S64 : Shape := ⟨1, ![64]⟩
abbrev S_ : Shape := ⟨0, ![]⟩

class Facts : Prop where
  bcast_S_S16000x100x4 : S_.BroadcastsInDim S16000x100x4 (![] : Fin 0 → Fin S16000x100x4.rank)
  reducesTo_S16000x100x4_S_d0_1_2 : S16000x100x4.ReducesTo [0, 1, 2] S_
  h_S_ : 0 < S_.numel
  bcast_S_S64x9 : S_.BroadcastsInDim S64x9 (![] : Fin 0 → Fin S64x9.rank)
  reducesTo_S64x9_S_d0_1 : S64x9.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S64 .f32) (main_arg7 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_cst_10 : FVec F S_ .f32 := constant S_ .f32 0x00000000#32
  let main_v29 : FVec F S64 .f32 := broadcastInDim S64 ![] bcast_S_S64 main_cst_10
  let main_v30 : IVec S64 1 := cmpf .oge main_arg7 main_v29
  let main_c_11 : IVec S_ 1 := constantI S_ 1 1#1
  let main_v31 : IVec S_ 1 := (fun x v => Host.reduce IntOp.andi x v reducesTo_S64_S_d0 h_S_) main_v30 main_c_11
  let main_v32 : IVec S_ 1 := andi main_v28 main_v31
  main_v32

def fn {F : FTy → Type} [FloatOps F] (main_arg0 : FVec F S16000x100x4 .f32) (main_arg1 : IVec S16000x3 32) (main_arg2 : IVec S16000 32) (main_arg3 : FVec F S64x9 .f32) (main_arg4 : FVec F S64 .f32) (main_arg5 : FVec F S64 .f32) (main_arg6 : FVec F S64 .f32) (main_arg7 : FVec F S64 .f32) : IVec S_ 1 :=
  let main_v0 : FVec F S16000x100x4 .f32 := Host.absf main_arg0
  let main_cst : FVec F S_ .f32 := constant S_ .f32 0x7F800000#32
  let main_v1 : FVec F S16000x100x4 .f32 := broadcastInDim S16000x100x4 ![] bcast_S_S16000x100x4 main_cst
  let main_v2 : IVec S16000x100x4 1 := cmpf .olt main_v0 main_v1
  let main_c : IVec S_ 1 := constantI S_ 1 1#1
  let main_v3 : IVec S_ 1 := (fun x v => Host.reduce IntOp.andi x v reducesTo_S16000x100x4_S_d0_1_2 h_S_) main_v2 main_c
  let main_v4 : FVec F S64x9 .f32 := Host.absf main_arg3
  let main_cst_0 : FVec F S_ .f32 := constant S_ .f32 0x7F800000#32
  let main_v5 : FVec F S64x9 .f32 := broadcastInDim S64x9 ![] bcast_S_S64x9 main_cst_0
  let main_v6 : IVec S64x9 1 := cmpf .olt main_v4 main_v5
  let main_c_1 : IVec S_ 1 := constantI S_ 1 1#1
  let main_v7 : IVec S_ 1 := (fun x v => Host.reduce IntOp.andi x v reducesTo_S64x9_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_v13 main_v16
-- ==== Kernel.lean ====
abbrev S16000x100x4 : Shape := ⟨3, ![16000, 100, 4]⟩
abbrev S16000x3 : Shape := ⟨2, ![16000, 3]⟩
abbrev S16000 : Shape := ⟨1, ![16000]⟩
abbrev S64x9 : Shape := ⟨2, ![64, 9]⟩
abbrev S64 : Shape := ⟨1, ![64]⟩
abbrev S16000x4x100 : Shape := ⟨3, ![16000, 4, 100]⟩
abbrev S16000x1 : Shape := ⟨2, ![16000, 1]⟩
abbrev S_ : Shape := ⟨0, ![]⟩
abbrev S64x1 : Shape := ⟨2, ![64, 1]⟩
abbrev S16000x64 : Shape := ⟨2, ![16000, 64]⟩
abbrev S200x4x100 : Shape := ⟨3, ![200, 4, 100]⟩
abbrev S200x1 : Shape := ⟨2, ![200, 1]⟩
abbrev S200x64 : Shape := ⟨2, ![200, 64]⟩
abbrev S200x3x100 : Shape := ⟨3, ![200, 3, 100]⟩
abbrev S200x1x1 : Shape := ⟨3, ![200, 1, 1]⟩
abbrev S200x3 : Shape := ⟨2, ![200, 3]⟩
abbrev S200x3x1 : Shape := ⟨3, ![200, 3, 1]⟩
abbrev S200x1x100 : Shape := ⟨3, ![200, 1, 100]⟩
abbrev S200x100 : Shape := ⟨2, ![200, 100]⟩
abbrev S200x9x100 : Shape := ⟨3, ![200, 9, 100]⟩
abbrev S200x64x100 : Shape := ⟨3, ![200, 64, 100]⟩
abbrev S1x64x1 : Shape := ⟨3, ![1, 64, 1]⟩

abbrev nBuf : Space → Nat
  | .hbm => 41
  | .vmem => 13
  | .smem => 0
  | _ => 0

abbrev bufTy : (tb : Table) → Fin (tcTables nBuf tb) → BufTy
  | .hbm, ⟨0, _⟩ => ⟨S16000x100x4, .f32⟩
  | .hbm, ⟨1, _⟩ => ⟨S16000x3, .i32⟩
  | .hbm, ⟨2, _⟩ => ⟨S16000, .i32⟩
  | .hbm, ⟨3, _⟩ => ⟨S64x9, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S16000x4x100, .f32⟩
  | .hbm, ⟨9, _⟩ => ⟨S16000, .f32⟩
  | .hbm, ⟨10, _⟩ => ⟨S16000x1, .f32⟩
  | .hbm, ⟨11, _⟩ => ⟨S16000x1, .i32⟩
  | .hbm, ⟨12, _⟩ => ⟨S16000, .i32⟩
  | .hbm, ⟨13, _⟩ => ⟨S16000, .f32⟩
  | .hbm, ⟨14, _⟩ => ⟨S_, .f32⟩
  | .hbm, ⟨15, _⟩ => ⟨S16000, .f32⟩
  | .hbm, ⟨16, _⟩ => ⟨S16000, .f32⟩
  | .hbm, ⟨17, _⟩ => ⟨S_, .f32⟩
  | .hbm, ⟨18, _⟩ => ⟨S16000, .f32⟩
  | .hbm, ⟨19, _⟩ => ⟨S16000, .f32⟩
  | .hbm, ⟨20, _⟩ => ⟨S16000x1, .f32⟩
  | .hbm, ⟨21, _⟩ => ⟨S16000x1, .i32⟩
  | .hbm, ⟨22, _⟩ => ⟨S16000, .i32⟩
  | .hbm, ⟨23, _⟩ => ⟨S16000, .f32⟩
  | .hbm, ⟨24, _⟩ => ⟨S_, .f32⟩
  | .hbm, ⟨25, _⟩ => ⟨S16000, .f32⟩
  | .hbm, ⟨26, _⟩ => ⟨S16000, .f32⟩
  | .hbm, ⟨27, _⟩ => ⟨S_, .f32⟩
  | .hbm, ⟨28, _⟩ => ⟨S16000, .f32⟩
  | .hbm, ⟨29, _⟩ => ⟨S16000, .f32⟩
  | .hbm, ⟨30, _⟩ => ⟨S16000x1, .f32⟩
  | .hbm, ⟨31, _⟩ => ⟨S_, .f32⟩
  | .hbm, ⟨32, _⟩ => ⟨S64, .f32⟩
  | .hbm, ⟨33, _⟩ => ⟨S64, .f32⟩
  | .hbm, ⟨34, _⟩ => ⟨S64, .f32⟩
  | .hbm, ⟨35, _⟩ => ⟨S64, .f32⟩
  | .hbm, ⟨36, _⟩ => ⟨S64, .f32⟩
  | .hbm, ⟨37, _⟩ => ⟨S64, .f32⟩
  | .hbm, ⟨38, _⟩ => ⟨S64x1, .f32⟩
  | .hbm, ⟨39, _⟩ => ⟨S64x1, .f32⟩
  | .hbm, ⟨40, _⟩ => ⟨S16000x64, .f32⟩
  | .local _ .vmem, ⟨0, _⟩ => ⟨S200x4x100, .f32⟩
  | .local _ .vmem, ⟨1, _⟩ => ⟨S200x4x100, .f32⟩
  | .local _ .vmem, ⟨2, _⟩ => ⟨S200x1, .f32⟩
  | .local _ .vmem, ⟨3, _⟩ => ⟨S200x1, .f32⟩
  | .local _ .vmem, ⟨4, _⟩ => ⟨S200x1, .f32⟩
  | .local _ .vmem, ⟨5, _⟩ => ⟨S200x1, .f32⟩
  | .local _ .vmem, ⟨6, _⟩ => ⟨S200x1, .f32⟩
  | .local _ .vmem, ⟨7, _⟩ => ⟨S200x1, .f32⟩
  | .local _ .vmem, ⟨8, _⟩ => ⟨S64x9, .f32⟩
  | .local _ .vmem, ⟨9, _⟩ => ⟨S64x1, .f32⟩
  | .local _ .vmem, ⟨10, _⟩ => ⟨S64x1, .f32⟩
  | .local _ .vmem, ⟨11, _⟩ => ⟨S200x64, .f32⟩
  | .local _ .vmem, ⟨12, _⟩ => ⟨S200x64, .f32⟩
  | _, _ => ⟨S16000x100x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![80], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S200x4x100 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S200x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S200x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S200x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S64x9 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S200x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  transposes_S16000x100x4_S16000x4x100_0_2_1 : S16000x100x4.Transposes [0, 2, 1] S16000x4x100
  shapeCasts_S16000_S16000x1 : S16000.ShapeCasts S16000x1
  slices_S16000x3_S16000x1_0_2 : S16000x3.Slices ![0, 2] S16000x1
  shapeCasts_S16000x1_S16000 : S16000x1.ShapeCasts S16000
  bcast_S_S16000 : S_.BroadcastsInDim S16000 (![] : Fin 0 → Fin S16000.rank)
  slices_S16000x3_S16000x1_0_1 : S16000x3.Slices ![0, 1] S16000x1
  bcast_S_S64 : S_.BroadcastsInDim S64 (![] : Fin 0 → Fin S64.rank)
  shapeCasts_S64_S64x1 : S64.ShapeCasts S64x1
  inb_S200x4x100_S200x4x100_0_0_0 : ∀ a, (![0, 0, 0] : Fin 3 → Nat) a + S200x4x100.size a ≤ S200x4x100.size a
  h_S200x4x100 : 0 < S200x4x100.numel
  shapeCasts_S200x4x100_S200x4x100 : S200x4x100.ShapeCasts S200x4x100
  slices_S200x4x100_o0_0_0_S200x3x100 : S200x4x100.Slices ![0, 0, 0] S200x3x100
  inb_S200x1_S200x1_0_0 : ∀ a, (![0, 0] : Fin 2 → Nat) a + S200x1.size a ≤ S200x1.size a
  h_S200x1 : 0 < S200x1.numel
  shapeCasts_S200x1_S200x1 : S200x1.ShapeCasts S200x1
  shapeCasts_S200x1_S200x1x1 : S200x1.ShapeCasts S200x1x1
  reduces_S200x3x100_S200x3 : S200x3x100.Reduces [2] S200x3
  shapeCasts_S200x3_S200x3x1 : S200x3.ShapeCasts S200x3x1
  broadcasts_S200x1x1_S200x3x1 : S200x1x1.Broadcasts S200x3x1
  broadcasts_S200x3x1_S200x3x100 : S200x3x1.Broadcasts S200x3x100
  slices_S200x4x100_o0_0_0_S200x1x100 : S200x4x100.Slices ![0, 0, 0] S200x1x100
  shapeCasts_S200x1x100_S200x100 : S200x1x100.ShapeCasts S200x100
  broadcasts_S200x1_S200x100 : S200x1.Broadcasts S200x100
  slices_S200x4x100_o0_1_0_S200x1x100 : S200x4x100.Slices ![0, 1, 0] S200x1x100
  shapeCasts_S200x100_S200x1x100 : S200x100.ShapeCasts S200x1x100
  concatenates_S200x4x100_S200x3x100_S200x1x100_S200x1x100_S200x9x100_d1 : Shape.Concatenates [S200x4x100, S200x3x100, S200x1x100, S200x1x100] S200x9x100 1
  iota_S200x100_d1_w32 : S200x100.Iotas .tc 32 [1]
  natLt_1_32 : 1 < 32
  broadcasts_S200x1x100_S200x9x100 : S200x1x100.Broadcasts S200x9x100
  inb_S64x9_S64x9_0_0 : ∀ a, (![0, 0] : Fin 2 → Nat) a + S64x9.size a ≤ S64x9.size a
  h_S64x9 : 0 < S64x9.numel
  slices_S64x9_o0_0_S64x1 : S64x9.Slices ![0, 0] S64x1
  shapeCasts_S64x1_S64 : S64x1.ShapeCasts S64
  slices_S200x9x100_o0_0_0_S200x1x100 : S200x9x100.Slices ![0, 0, 0] S200x1x100
  shapeCasts_S64_S1x64x1 : S64.ShapeCasts S1x64x1
  broadcasts_S1x64x1_S200x64x100 : S1x64x1.Broadcasts S200x64x100
  broadcasts_S200x1x100_S200x64x100 : S200x1x100.Broadcasts S200x64x100
  slices_S64x9_o0_1_S64x1 : S64x9.Slices ![0, 1] S64x1
  slices_S200x9x100_o0_1_0_S200x1x100 : S200x9x100.Slices ![0, 1, 0] S200x1x100
  slices_S64x9_o0_2_S64x1 : S64x9.Slices ![0, 2] S64x1
  slices_S200x9x100_o0_2_0_S200x1x100 : S200x9x100.Slices ![0, 2, 0] S200x1x100
  slices_S64x9_o0_3_S64x1 : S64x9.Slices ![0, 3] S64x1
  slices_S200x9x100_o0_3_0_S200x1x100 : S200x9x100.Slices ![0, 3, 0] S200x1x100
  slices_S64x9_o0_4_S64x1 : S64x9.Slices ![0, 4] S64x1
  slices_S200x9x100_o0_4_0_S200x1x100 : S200x9x100.Slices ![0, 4, 0] S200x1x100
  slices_S64x9_o0_5_S64x1 : S64x9.Slices ![0, 5] S64x1
  slices_S200x9x100_o0_5_0_S200x1x100 : S200x9x100.Slices ![0, 5, 0] S200x1x100
  slices_S64x9_o0_6_S64x1 : S64x9.Slices ![0, 6] S64x1
  slices_S200x9x100_o0_6_0_S200x1x100 : S200x9x100.Slices ![0, 6, 0] S200x1x100
  slices_S64x9_o0_7_S64x1 : S64x9.Slices ![0, 7] S64x1
  slices_S200x9x100_o0_7_0_S200x1x100 : S200x9x100.Slices ![0, 7, 0] S200x1x100
  slices_S64x9_o0_8_S64x1 : S64x9.Slices ![0, 8] S64x1
  slices_S200x9x100_o0_8_0_S200x1x100 : S200x9x100.Slices ![0, 8, 0] S200x1x100
  inb_S64x1_S64x1_0_0 : ∀ a, (![0, 0] : Fin 2 → Nat) a + S64x1.size a ≤ S64x1.size a
  h_S64x1 : 0 < S64x1.numel
  shapeCasts_S64x1_S64x1 : S64x1.ShapeCasts S64x1
  shapeCasts_S64x1_S1x64x1 : S64x1.ShapeCasts S1x64x1
  reduces_S200x64x100_S200x64 : S200x64x100.Reduces [2] S200x64
  inb_S200x64_S200x64_0_0 : ∀ a, (![0, 0] : Fin 2 → Nat) a + S200x64.size a ≤ S200x64.size a
  h_S200x64 : 0 < S200x64.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x4x100.size a ≤ S16000x4x100.size a
  hwx0_0 : ∀ i : grid0.Coords, EltTy.bits .f32 = 32 ∨ (Rect.block (s := S16000x4x100) S200x4x100.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S200x1.size a ≤ S16000x1.size a
  hwx0_1 : ∀ i : grid0.Coords, EltTy.bits .f32 = 32 ∨ (Rect.block (s := S16000x1) S200x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S200x1.size a ≤ S16000x1.size a
  hwx0_2 : ∀ i : grid0.Coords, EltTy.bits .f32 = 32 ∨ (Rect.block (s := S16000x1) S200x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S200x1.size a ≤ S16000x1.size a
  hwx0_3 : ∀ i : grid0.Coords, EltTy.bits .f32 = 32 ∨ (Rect.block (s := S16000x1) S200x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x9.size a ≤ S64x9.size a
  hwx0_4 : ∀ i : grid0.Coords, EltTy.bits .f32 = 32 ∨ (Rect.block (s := S64x9) S64x9.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x1.size a ≤ S64x1.size a
  hwx0_5 : ∀ i : grid0.Coords, EltTy.bits .f32 = 32 ∨ (Rect.block (s := S64x1) S64x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x1.size a ≤ S64x1.size a
  hwx0_6 : ∀ i : grid0.Coords, EltTy.bits .f32 = 32 ∨ (Rect.block (s := S64x1) S64x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S200x64.size a ≤ S16000x64.size a
  hwx0_7 : ∀ i : grid0.Coords, EltTy.bits .f32 = 32 ∨ (Rect.block (s := S16000x64) S200x64.size (cc0_transform_7 i) (hinb0_7 i)).WholeWords (EltTy.packing .f32)

variable [Facts₀]

abbrev win0_0 : Pipeline.Window sig grid0 :=
  Pipeline.Window.ofSpec (Memref.whole main_v0) S200x4x100.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S200x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S200x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S200x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S64x9.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S64x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v26) S64x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v27) S200x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S16000x100x4 : Shape := ⟨3, ![16000, 100, 4]⟩
abbrev S16000x3 : Shape := ⟨2, ![16000, 3]⟩
abbrev S16000 : Shape := ⟨1, ![16000]⟩
abbrev S64x9 : Shape := ⟨2, ![64, 9]⟩
abbrev S64 : Shape := ⟨1, ![64]⟩
abbrev S16000x1x1 : Shape := ⟨3, ![16000, 1, 1]⟩
abbrev S16000x100x3 : Shape := ⟨3, ![16000, 100, 3]⟩
abbrev S_ : Shape := ⟨0, ![]⟩
abbrev S16000x1x3 : Shape := ⟨3, ![16000, 1, 3]⟩
abbrev S16000x1 : Shape := ⟨2, ![16000, 1]⟩
abbrev S16000x100x1 : Shape := ⟨3, ![16000, 100, 1]⟩
abbrev S16000x100 : Shape := ⟨2, ![16000, 100]⟩
abbrev S16000x100x2 : Shape := ⟨3, ![16000, 100, 2]⟩
abbrev S16000x100x9 : Shape := ⟨3, ![16000, 100, 9]⟩
abbrev S100 : Shape := ⟨1, ![100]⟩
abbrev S1x100 : Shape := ⟨2, ![1, 100]⟩
abbrev S16000x100x64 : Shape := ⟨3, ![16000, 100, 64]⟩
abbrev S1x1x64 : Shape := ⟨3, ![1, 1, 64]⟩
abbrev S16000x64 : Shape := ⟨2, ![16000, 64]⟩

abbrev nBuf : Space → Nat
  | .hbm => 83
  | .vmem => 0
  | .smem => 0
  | _ => 0

abbrev bufTy : (tb : Table) → Fin (tcTables nBuf tb) → BufTy
  | .hbm, ⟨0, _⟩ => ⟨S16000x100x4, .f32⟩
  | .hbm, ⟨1, _⟩ => ⟨S16000x3, .i32⟩
  | .hbm, ⟨2, _⟩ => ⟨S16000, .i32⟩
  | .hbm, ⟨3, _⟩ => ⟨S64x9, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S16000, .f32⟩
  | .hbm, ⟨9, _⟩ => ⟨S16000x1x1, .f32⟩
  | .hbm, ⟨10, _⟩ => ⟨S16000x100x3, .f32⟩
  | .hbm, ⟨11, _⟩ => ⟨S_, .f32⟩
  | .hbm, ⟨12, _⟩ => ⟨S16000x3, .f32⟩
  | .hbm, ⟨13, _⟩ => ⟨S16000x1x3, .f32⟩
  | .hbm, ⟨14, _⟩ => ⟨S16000x1x3, .f32⟩
  | .hbm, ⟨15, _⟩ => ⟨S16000x1x3, .f32⟩
  | .hbm, ⟨16, _⟩ => ⟨S16000x100x3, .f32⟩
  | .hbm, ⟨17, _⟩ => ⟨S16000x100x3, .f32⟩
  | .hbm, ⟨18, _⟩ => ⟨S16000x100x3, .f32⟩
  | .hbm, ⟨19, _⟩ => ⟨S16000x1, .i32⟩
  | .hbm, ⟨20, _⟩ => ⟨S16000, .i32⟩
  | .hbm, ⟨21, _⟩ => ⟨S16000, .f32⟩
  | .hbm, ⟨22, _⟩ => ⟨S16000x1, .f32⟩
  | .hbm, ⟨23, _⟩ => ⟨S_, .f32⟩
  | .hbm, ⟨24, _⟩ => ⟨S16000x1, .f32⟩
  | .hbm, ⟨25, _⟩ => ⟨S16000x1, .f32⟩
  | .hbm, ⟨26, _⟩ => ⟨S_, .f32⟩
  | .hbm, ⟨27, _⟩ => ⟨S16000x1, .f32⟩
  | .hbm, ⟨28, _⟩ => ⟨S16000x1, .f32⟩
  | .hbm, ⟨29, _⟩ => ⟨S16000x1, .i32⟩
  | .hbm, ⟨30, _⟩ => ⟨S16000, .i32⟩
  | .hbm, ⟨31, _⟩ => ⟨S16000, .f32⟩
  | .hbm, ⟨32, _⟩ => ⟨S16000x1, .f32⟩
  | .hbm, ⟨33, _⟩ => ⟨S_, .f32⟩
  | .hbm, ⟨34, _⟩ => ⟨S16000x1, .f32⟩
  | .hbm, ⟨35, _⟩ => ⟨S16000x1, .f32⟩
  | .hbm, ⟨36, _⟩ => ⟨S_, .f32⟩
  | .hbm, ⟨37, _⟩ => ⟨S16000x1, .f32⟩
  | .hbm, ⟨38, _⟩ => ⟨S16000x1, .f32⟩
  | .hbm, ⟨39, _⟩ => ⟨S16000x100x1, .f32⟩
  | .hbm, ⟨40, _⟩ => ⟨S16000x100, .f32⟩
  | .hbm, ⟨41, _⟩ => ⟨S16000x100, .f32⟩
  | .hbm, ⟨42, _⟩ => ⟨S16000x100, .f32⟩
  | .hbm, ⟨43, _⟩ => ⟨S16000x100x1, .f32⟩
  | .hbm, ⟨44, _⟩ => ⟨S16000x100, .f32⟩
  | .hbm, ⟨45, _⟩ => ⟨S16000x100, .f32⟩
  | .hbm, ⟨46, _⟩ => ⟨S16000x100, .f32⟩
  | .hbm, ⟨47, _⟩ => ⟨S16000x100x1, .f32⟩
  | .hbm, ⟨48, _⟩ => ⟨S16000x100x1, .f32⟩
  | .hbm, ⟨49, _⟩ => ⟨S16000x100x2, .f32⟩
  | .hbm, ⟨50, _⟩ => ⟨S16000x100x9, .f32⟩
  | .hbm, ⟨51, _⟩ => ⟨S16000x1, .i32⟩
  | .hbm, ⟨52, _⟩ => ⟨S100, .i32⟩
  | .hbm, ⟨53, _⟩ => ⟨S1x100, .i32⟩
  | .hbm, ⟨54, _⟩ => ⟨S16000x100, .i32⟩
  | .hbm, ⟨55, _⟩ => ⟨S16000x100, .i32⟩
  | .hbm, ⟨56, _⟩ => ⟨S16000x100, .i1⟩
  | .hbm, ⟨57, _⟩ => ⟨S16000x100x1, .i1⟩
  | .hbm, ⟨58, _⟩ => ⟨S16000x100x1, .f32⟩
  | .hbm, ⟨59, _⟩ => ⟨S16000x100x9, .f32⟩
  | .hbm, ⟨60, _⟩ => ⟨S16000x100x9, .f32⟩
  | .hbm, ⟨61, _⟩ => ⟨S16000x100x64, .f32⟩
  | .hbm, ⟨62, _⟩ => ⟨S1x1x64, .f32⟩
  | .hbm, ⟨63, _⟩ => ⟨S16000x100x64, .f32⟩
  | .hbm, ⟨64, _⟩ => ⟨S16000x100x64, .f32⟩
  | .hbm, ⟨65, _⟩ => ⟨S_, .f32⟩
  | .hbm, ⟨66, _⟩ => ⟨S64, .f32⟩
  | .hbm, ⟨67, _⟩ => ⟨S64, .f32⟩
  | .hbm, ⟨68, _⟩ => ⟨S64, .f32⟩
  | .hbm, ⟨69, _⟩ => ⟨S1x1x64, .f32⟩
  | .hbm, ⟨70, _⟩ => ⟨S16000x100x64, .f32⟩
  | .hbm, ⟨71, _⟩ => ⟨S16000x100x64, .f32⟩
  | .hbm, ⟨72, _⟩ => ⟨S1x1x64, .f32⟩
  | .hbm, ⟨73, _⟩ => ⟨S16000x100x64, .f32⟩
  | .hbm, ⟨74, _⟩ => ⟨S16000x100x64, .f32⟩
  | .hbm, ⟨75, _⟩ => ⟨S1x1x64, .f32⟩
  | .hbm, ⟨76, _⟩ => ⟨S16000x100x64, .f32⟩
  | .hbm, ⟨77, _⟩ => ⟨S16000x100x64, .f32⟩
  | .hbm, ⟨78, _⟩ => ⟨S_, .f32⟩
  | .hbm, ⟨79, _⟩ => ⟨S16000x100x64, .f32⟩
  | .hbm, ⟨80, _⟩ => ⟨S16000x100x64, .f32⟩
  | .hbm, ⟨81, _⟩ => ⟨S_, .f32⟩
  | .hbm, ⟨82, _⟩ => ⟨S16000x64, .f32⟩
  | _, _ => ⟨S16000x100x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_0 : Ref sig .tc := ⟨.hbm, 23, rfl⟩
abbrev main_v14 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_2 : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_cst_4 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_call0_cst : Ref sig .tc := ⟨.hbm, 78, rfl⟩
abbrev main_call0_v0 : Ref sig .tc := ⟨.hbm, 79, rfl⟩
abbrev main_v64 : Ref sig .tc := ⟨.hbm, 80, rfl⟩
abbrev main_cst_5 : Ref sig .tc := ⟨.hbm, 81, rfl⟩
abbrev main_v65 : Ref sig .tc := ⟨.hbm, 82, rfl⟩

abbrev nD : Nat := 1
abbrev τ : Topo := Topo.v7x

variable {F : FTy → Type} [FloatOps F]

class Facts₀ : Prop where
  bcast_S16000_S16000x1x1_0 : S16000.BroadcastsInDim S16000x1x1 (![0] : Fin 1 → Fin S16000x1x1.rank)
  slices_S16000x100x4_S16000x100x3_0_0_0 : S16000x100x4.Slices ![0, 0, 0] S16000x100x3
  reducesTo_S16000x100x3_S16000x3_d1 : S16000x100x3.ReducesTo [1] S16000x3
  h_S_ : 0 < S_.numel
  bcast_S16000x3_S16000x1x3_0_2 : S16000x3.BroadcastsInDim S16000x1x3 (![0, 2] : Fin 2 → Fin S16000x1x3.rank)
  bcast_S16000x1x1_S16000x1x3_0_1_2 : S16000x1x1.BroadcastsInDim S16000x1x3 (![0, 1, 2] : Fin 3 → Fin S16000x1x3.rank)
  bcast_S16000x1x3_S16000x100x3_0_1_2 : S16000x1x3.BroadcastsInDim S16000x100x3 (![0, 1, 2] : Fin 3 → Fin S16000x100x3.rank)
  slices_S16000x3_S16000x1_0_2 : S16000x3.Slices ![0, 2] S16000x1
  shapeCasts_S16000x1_S16000 : S16000x1.ShapeCasts S16000
  bcast_S16000_S16000x1_0 : S16000.BroadcastsInDim S16000x1 (![0] : Fin 1 → Fin S16000x1.rank)
  bcast_S_S16000x1 : S_.BroadcastsInDim S16000x1 (![] : Fin 0 → Fin S16000x1.rank)
  slices_S16000x3_S16000x1_0_1 : S16000x3.Slices ![0, 1] S16000x1
  slices_S16000x100x4_S16000x100x1_0_0_0 : S16000x100x4.Slices ![0, 0, 0] S16000x100x1
  shapeCasts_S16000x100x1_S16000x100 : S16000x100x1.ShapeCasts S16000x100
  bcast_S16000x1_S16000x100_0_1 : S16000x1.BroadcastsInDim S16000x100 (![0, 1] : Fin 2 → Fin S16000x100.rank)
  slices_S16000x100x4_S16000x100x1_0_0_1 : S16000x100x4.Slices ![0, 0, 1] S16000x100x1
  bcast_S16000x100_S16000x100x1_0_1 : S16000x100.BroadcastsInDim S16000x100x1 (![0, 1] : Fin 2 → Fin S16000x100x1.rank)
  concatenates_S16000x100x1_S16000x100x1_S16000x100x2_d2 : Shape.Concatenates [S16000x100x1, S16000x100x1] S16000x100x2 2
  concatenates_S16000x100x4_S16000x100x3_S16000x100x2_S16000x100x9_d2 : Shape.Concatenates [S16000x100x4, S16000x100x3, S16000x100x2] S16000x100x9 2
  bcast_S100_S1x100_1 : S100.BroadcastsInDim S1x100 (![1] : Fin 1 → Fin S1x100.rank)
  bcast_S1x100_S16000x100_0_1 : S1x100.BroadcastsInDim S16000x100 (![0, 1] : Fin 2 → Fin S16000x100.rank)
  bcast_S16000x100x1_S16000x100x9_0_1_2 : S16000x100x1.BroadcastsInDim S16000x100x9 (![0, 1, 2] : Fin 3 → Fin S16000x100x9.rank)
  bcast_S64_S1x1x64_2 : S64.BroadcastsInDim S1x1x64 (![2] : Fin 1 → Fin S1x1x64.rank)
  bcast_S1x1x64_S16000x100x64_0_1_2 : S1x1x64.BroadcastsInDim S16000x100x64 (![0, 1, 2] : Fin 3 → Fin S16000x100x64.rank)
  bcast_S_S64 : S_.BroadcastsInDim S64 (![] : Fin 0 → Fin S64.rank)
  bcast_S_S16000x100x64 : S_.BroadcastsInDim S16000x100x64 (![] : Fin 0 → Fin S16000x100x64.rank)
  reducesTo_S16000x100x64_S16000x64_d1 : S16000x100x64.ReducesTo [1] S16000x64
  dot_S16000x100x9_S64x9_S16000x100x64_2_1_01_0_n_n_wf : DotDims.WF S16000x100x9 S64x9 S16000x100x64 [2] [1] [0, 1] [0] [] []

variable [Facts₀]

def dot_S16000x100x9_S64x9_S16000x100x64_2_1_01_0_n_n : DotDims S16000x100x9 S64x9 S16000x100x64 where
  lhsContracting := [2]
  rhsContracting := [1]
  lhsNonContracting := [0, 1]
  rhsNonContracting := [0]
  lhsBatch := []
  rhsBatch := []
  wf := dot_S16000x100x9_S64x9_S16000x100x64_2_1_01_0_n_n_wf

class Facts : Prop extends Facts₀ where

variable [Facts]
-- ==== Proof.Spec.lean ====
/-
  The pillar feature layer on the extended reals, for one pillar (voxel) and one output channel.

  A pillar holds 100 points of 4 features. Each point is augmented to 9 channels: its 4 features, its first
  three features minus the pillar's mean over the declared number of points, and its first two features minus
  the pillar centre's two coordinates. Points at or beyond the declared number are zeroed by a 0/1 mask. The
  9 channels are contracted with a weight row, an affine batch-norm step and a rectifier follow, and the
  result is the maximum over the 100 points.

  Two spellings of that value are stated: one multiplies by a folded scale and adds a folded shift and masks by
  a comparison of numbers; the other subtracts the running mean, multiplies by the inverse deviation and the
  gain, adds the offset, and masks by a comparison of integers. They agree whenever the running mean, the inverse
  deviation, the gain and the offset are real numbers; the contraction itself may be any extended real.
-/
import Idealize.ShloMosaic.PureOps.Ideal.Laws
import Idealize.ShloMosaic.Lib.ValueIdx

noncomputable section

open scoped BigOperators

namespace Cert.Pillar

open Idealize.ShloMosaic

/-- The nine channels of one point: features `f`, the pillar's means `m` of the first three, the centre `(cx, cy)`. -/
def chan (f : Fin 4 → EReal) (m : Fin 3 → EReal) (cx cy : EReal) (c : Fin 9) : EReal :=
  if h4 : c.val < 4 then f ⟨c.val, h4⟩
  else if h7 : c.val < 7 then f ⟨c.val - 4, by omega⟩ - m ⟨c.val - 4, by omega⟩
  else if c.val = 7 then f 0 - cx else f 1 - cy

/-- The mean of feature `j` over the pillar's 100 stored points, divided by the declared count. -/
def mean (f : Fin 100 → Fin 4 → EReal) (cnt : EReal) (j : Fin 3) : EReal :=
  Ideal.div (∑ q : Fin 100, f q ⟨j.val, by omega⟩) cnt

/-- The mask by a comparison of numbers: 1 when the count exceeds the point's position, else 0. -/
def maskNum (cnt : EReal) (p : Fin 100) : EReal :=
  FloatOps.sitofp (F := Ideal) .f32
    (BitVec.setWidth 32 (FloatOps.cmpf (F := Ideal) (φ := .f32) .ogt cnt (FloatOps.sitofp (F := Ideal) .f32 (BitVec.ofNat 32 p.val))))

/-- The mask by a comparison of integers. -/
def maskInt (n : BitVec 32) (p : Fin 100) : EReal :=
  FloatOps.uitofp (F := Ideal) .f32 (IntOp.cmpi .sgt n (BitVec.ofNat 32 p.val))

/-- A pillar centre's coordinate from its integer grid index: index × 0.16 plus an offset (0.08 along x, −39.92 along y). -/
def centreX (w : BitVec 32) : EReal :=
  FloatOps.sitofp (F := Ideal) .f32 w * Ideal.ofBits .f32 0x3E23D70A#32 + Ideal.ofBits .f32 0x3DA3D70A#32
def centreY (w : BitVec 32) : EReal :=
  FloatOps.sitofp (F := Ideal) .f32 w * Ideal.ofBits .f32 0x3E23D70A#32 + Ideal.ofBits .f32 0xC21FAE14#32

/-- The pattern of −∞, from which both maxima start, and of zero, the rectifier's floor. -/
abbrev negInf : EReal := Ideal.ofBits .f32 0xFF800000#32
abbrev zero : EReal := Ideal.ofBits .f32 0x00000000#32

/-- The layer with a folded scale and shift. -/
def outFolded (f : Fin 100 → Fin 4 → EReal) (cnt cx cy : EReal) (w : Fin 9 → EReal) (scale shift : EReal) : EReal :=
  (Finset.univ : Finset (Fin 100)).fold max negInf fun p =>
    max ((∑ c : Fin 9, (chan (f p) (mean f cnt) cx cy c * maskNum cnt p) * w c) * scale + shift) zero

/-- The layer as batch normalisation spells it. -/
def outNorm (f : Fin 100 → Fin 4 → EReal) (n : BitVec 32) (cx cy : EReal) (w : Fin 9 → EReal) (rm inv ga be : EReal) : EReal :=
  (Finset.univ : Finset (Fin 100)).fold max negInf fun p =>
    max ((((∑ c : Fin 9, (chan (f p) (mean f (FloatOps.sitofp (F := Ideal) .f32 n)) cx cy c * maskInt n p) * w c) - rm) * inv) * ga + be) zero

/-- Comparing the integers is comparing the numbers they denote. -/
theorem maskNum_eq_maskInt (n : BitVec 32) (p : Fin 100) :
    maskNum (FloatOps.sitofp (F := Ideal) .f32 n) p = maskInt n p := by
  unfold maskNum maskInt
  show (((BitVec.setWidth 32 (Ideal.cmp .ogt ((n.toInt : ℝ) : EReal) (((BitVec.ofNat 32 p.val).toInt : ℝ) : EReal))).toInt : ℝ) : EReal)
      = (((IntOp.cmpi .sgt n (BitVec.ofNat 32 p.val)).toNat : ℝ) : EReal)
  unfold Ideal.cmp IntOp.cmpi
  simp only [BitVec.slt]
  have e : ((((BitVec.ofNat 32 p.val).toInt : ℝ) : EReal) < ((n.toInt : ℝ) : EReal)) ↔ (BitVec.ofNat 32 p.val).toInt < n.toInt := by
    rw [EReal.coe_lt_coe_iff]; exact Int.cast_lt
  by_cases h : (BitVec.ofNat 32 p.val).toInt < n.toInt
  · rw [decide_eq_true (e.mpr h), decide_eq_true h]; rfl
  · rw [decide_eq_false (fun h' => h (e.mp h')), decide_eq_false h]; rfl

/-- The affine step in its two spellings, for real coefficients and any contraction value. -/
theorem affine_eq (a : EReal) (r s g b : ℝ) :
    ((a - (r : EReal)) * (s : EReal)) * (g : EReal) + (b : EReal)
      = a * ((g : EReal) * (s : EReal)) + ((b : EReal) - (r : EReal) * ((g : EReal) * (s : EReal))) := by
  have hk : ((g : EReal) * (s : EReal)) = ((g * s : ℝ) : EReal) := (EReal.coe_mul g s).symm
  have hb : ((b : EReal) - (r : EReal) * ((g * s : ℝ) : EReal)) = ((b - r * (g * s) : ℝ) : EReal) := by
    rw [← EReal.coe_mul, ← EReal.coe_sub]
  induction a using EReal.rec with
  | coe x =>
    rw [hk, hb]
    rw [← EReal.coe_sub, ← EReal.coe_mul, ← EReal.coe_mul, ← EReal.coe_add, ← EReal.coe_mul, ← EReal.coe_add]
    exact congrArg _ (by ring)
  | top =>
    rw [EReal.top_sub_coe, mul_assoc, ← EReal.coe_mul, hk, hb, mul_comm s g]
    rcases lt_trichotomy (g * s) 0 with h | h | h
    · rw [EReal.top_mul_coe_of_neg h, EReal.bot_add, EReal.bot_add]
    · rw [h]; simp
    · rw [EReal.top_mul_coe_of_pos h, EReal.top_add_coe, EReal.top_add_coe]
  | bot =>
    rw [EReal.bot_sub, mul_assoc, ← EReal.coe_mul, hk, hb, mul_comm s g]
    rcases lt_trichotomy (g * s) 0 with h | h | h
    · rw [EReal.bot_mul_coe_of_neg h, EReal.top_add_coe, EReal.top_add_coe]
    · rw [h]; simp
    · rw [EReal.bot_mul_coe_of_pos h, EReal.bot_add, EReal.bot_add]

/-- The two spellings of the layer agree for real batch-norm coefficients. -/
theorem outNorm_eq_outFolded (f : Fin 100 → Fin 4 → EReal) (n : BitVec 32) (cx cy : EReal) (w : Fin 9 → EReal)
    (rm inv ga be : ℝ) :
    outNorm f n cx cy w (rm : EReal) (inv : EReal) (ga : EReal) (be : EReal)
      = outFolded f (FloatOps.sitofp (F := Ideal) .f32 n) cx cy w ((ga : EReal) * (inv : EReal))
          ((be : EReal) - (rm : EReal) * ((ga : EReal) * (inv : EReal))) := by
  unfold outNorm outFolded
  refine Finset.fold_congr fun p _ => ?_
  rw [maskNum_eq_maskInt, affine_eq]

/-- Nine products added one after the other onto a zero, the way an unrolled accumulation adds them, are the sum. -/
theorem chain9 (w a : Fin 9 → EReal) :
    zero + w 0 * a 0 + w 1 * a 1 + w 2 * a 2 + w 3 * a 3 + w 4 * a 4 + w 5 * a 5 + w 6 * a 6 + w 7 * a 7 + w 8 * a 8
      = ∑ c : Fin 9, a c * w c := by
  rw [show (zero : EReal) = 0 from Ideal.ofBits_zero_f32, zero_add,
    Finset.sum_congr rfl (fun c _ => mul_comm (a c) (w c)), Fin.sum_univ_castSucc, Fin.sum_univ_eight]
  rfl

end Cert.Pillar

end
-- ==== Proof.LibLayout3.lean ====
/-
  Layout operations of rank-2 and rank-3 arrays read at an index by coordinates, for any extents:
  a trailing or middle unit axis added to a matrix; a unit axis broadcast; a vector laid along the last axis of a rank-3 array;
  the two leading axes of a rank-3 array merged into one (row-major) and split again.
-/
import Idealize.ShloMosaic.Lib.Pipeline.Value
import Idealize.ShloMosaic.Lib.ValueIdx
import Idealize.ShloMosaic.Lib.ValueLayout

namespace Idealize.ShloMosaic.Layout3

open Idealize.ShloMosaic Idealize.ShloMosaic.ValueIdx

variable {α : Type}

/-- An `[a, b]` array cast to `[a, b, 1]` reads at `(i, j, u)` the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, c]` array cast to `[a, 1, c]` reads at `(i, u, k)` the operand at `(i, k)`. -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (k : Fin c) :
    shapeCast ⟨3, ![a, 1, c]⟩ x h (ix3 i u k) = x (ix2 i k) :=
  shapeCast_apply x h _ _ (by
    have hu : u.val = 0 := by omega
    rw [Shape.rowMajor_val_three, Shape.rowMajor_val_two]
    show i.val * c + k.val = (i.val * 1 + u.val) * c + k.val
    rw [hu, Nat.mul_one, Nat.add_zero])

/-- A `[c]` vector cast to `[1, 1, c]` reads at `(u, v, k)` the operand at `k`. -/
theorem shapeCast_c_11c_apply {c : ℕ} (x : (⟨1, ![c]⟩ : Shape).Idx → α)
    (h : (⟨1, ![c]⟩ : Shape).ShapeCasts ⟨3, ![1, 1, c]⟩) (u v : Fin 1) (k : Fin c) :
    shapeCast ⟨3, ![1, 1, c]⟩ x h (ix3 u v k) = x (ix1 k) :=
  shapeCast_apply x h _ _ (by
    have hu : u.val = 0 := by omega
    have hv : v.val = 0 := by omega
    rw [Shape.rowMajor_val_three, Shape.rowMajor_val_one]
    show k.val = (u.val * 1 + v.val) * c + k.val
    rw [hu, hv]; simp)

/-- An `[a, b, 1]` array broadcast to `[a, b, c]` reads at `(i, j, k)` the operand at `(i, j, 0)`. -/
theorem broadcastTo_ab1_abc_apply {a b c : ℕ} (x : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ x h (ix3 i j k) = x (ix3 i j (0 : Fin 1)) :=
  broadcastTo_apply x h _ _ (by
    intro d
    match d with
    | ⟨0, _⟩ =>
      show i.val = if a = 1 then 0 else i.val
      split
      · next e => have := i.isLt; omega
      · rfl
    | ⟨1, _⟩ =>
      show j.val = if b = 1 then 0 else j.val
      split
      · next e => have := j.isLt; omega
      · rfl
    | ⟨2, _⟩ => show (0 : ℕ) = if (1 : ℕ) = 1 then 0 else k.val; rw [if_pos rfl])

/-- An `[a, 1, c]` array broadcast to `[a, b, c]` reads at `(i, j, k)` the operand at `(i, 0, k)`. -/
theorem broadcastTo_a1c_abc_apply {a b c : ℕ} (x : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ x h (ix3 i j k) = x (ix3 i (0 : Fin 1) k) :=
  broadcastTo_apply x h _ _ (by
    intro d
    match d with
    | ⟨0, _⟩ =>
      show i.val = if a = 1 then 0 else i.val
      split
      · next e => have := i.isLt; omega
      · rfl
    | ⟨1, _⟩ => show (0 : ℕ) = if (1 : ℕ) = 1 then 0 else j.val; rw [if_pos rfl]
    | ⟨2, _⟩ =>
      show k.val = if c = 1 then 0 else k.val
      split
      · next e => have := k.isLt; omega
      · rfl)

/-- A `[1, 1, c]` array broadcast to `[a, b, c]` reads at `(i, j, k)` the operand at `(0, 0, k)`. -/
theorem broadcastTo_11c_abc_apply {a b c : ℕ} (x : (⟨3, ![1, 1, c]⟩ : Shape).Idx → α)
    (h : (⟨3, ![1, 1, c]⟩ : Shape).Broadcasts ⟨3, ![a, b, c]⟩) (i : Fin a) (j : Fin b) (k : Fin c) :
    broadcastTo ⟨3, ![a, b, c]⟩ x h (ix3 i j k) = x (ix3 (0 : Fin 1) (0 : Fin 1) k) :=
  broadcastTo_apply x h _ _ (by
    intro d
    match d with
    | ⟨0, _⟩ => show (0 : ℕ) = if (1 : ℕ) = 1 then 0 else i.val; rw [if_pos rfl]
    | ⟨1, _⟩ => show (0 : ℕ) = if (1 : ℕ) = 1 then 0 else j.val; rw [if_pos rfl]
    | ⟨2, _⟩ =>
      show k.val = if c = 1 then 0 else k.val
      split
      · next e => have := k.isLt; omega
      · rfl)

/-- An `[a, b, c]` array with its two leading axes merged, `[n, c]` with `n = a·b`, reads at row `i·b + j` the operand at
    `(i, j, ·)`. -/
theorem shapeCast_abc_nc_apply {a b c n : ℕ} (x : (⟨3, ![a, b, c]⟩ : Shape).Idx → α)
    (h : (⟨3, ![a, b, c]⟩ : Shape).ShapeCasts ⟨2, ![n, c]⟩) (i : Fin a) (j : Fin b) (k : Fin c) (r : Fin n)
    (hr : r.val = i.val * b + j.val) :
    shapeCast ⟨2, ![n, c]⟩ x h (ix2 r k) = x (ix3 i j k) :=
  shapeCast_apply x h _ _ (by
    rw [Shape.rowMajor_val_three, Shape.rowMajor_val_two]
    show (i.val * b + j.val) * c + k.val = r.val * c + k.val
    rw [hr])

/-- And split again: an `[n, c]` array cast to `[a, b, c]` reads at `(i, j, k)` the operand at row `i·b + j`. -/
theorem shapeCast_nc_abc_apply {a b c n : ℕ} (x : (⟨2, ![n, c]⟩ : Shape).Idx → α)
    (h : (⟨2, ![n, c]⟩ : Shape).ShapeCasts ⟨3, ![a, b, c]⟩) (i : Fin a) (j : Fin b) (k : Fin c) (r : Fin n)
    (hr : r.val = i.val * b + j.val) :
    shapeCast ⟨3, ![a, b, c]⟩ x h (ix3 i j k) = x (ix2 r k) :=
  shapeCast_apply x h _ _ (by
    rw [Shape.rowMajor_val_three, Shape.rowMajor_val_two]
    show r.val * c + k.val = (i.val * b + j.val) * c + k.val
    rw [hr])

end Idealize.ShloMosaic.Layout3
-- ==== Proof.LibMiddleUnit.lean ====
/-
  A middle unit axis dropped, read at an index: an [a, 1, b] array viewed as [a, b] (what indexing a keepdims result
  at position 0 of its unit axis produces) reads, at (i, j), the operand at (i, 0, j), for any extents.
-/
import Idealize.ShloMosaic.Lib.Pipeline.Value
import Idealize.ShloMosaic.Lib.ValueIdx

namespace Idealize.ShloMosaic.ValueIdx

variable {α : Type}

/-- An `[a, 1, b]` array cast to `[a, b]` reads, at `(i, j)`, the operand at `(i, 0, j)`. -/
theorem shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

end Idealize.ShloMosaic.ValueIdx
-- ==== Proof.BodyLayout.lean ====
/-
  Layout steps of the kernel body read at an index: the four-way join of channel groups along the channel axis of a
  [200, 9, 100] block, one weight column spread over pillars and points, and one channel row spread over output
  channels — the two factors of each term of the unrolled 9-term accumulation — and the scale / shift columns spread
  the same way.
-/
import proofs.«121828_j19009525252691_1_alg».proof.Proof.Gen.KernelIdeal.Skeleton
import proofs.«121828_j19009525252691_1_alg».proof.Proof.LibLayout3
import proofs.«121828_j19009525252691_1_alg».proof.Proof.LibMiddleUnit
import Idealize.ShloMosaic.Lib.Pipeline.Value
import Idealize.ShloMosaic.Lib.ValueIdx
import Idealize.ShloMosaic.Lib.ValueLayout

noncomputable section

namespace Cert.KernelIdeal.Body

open Cert.KernelIdeal Idealize.ShloMosaic Idealize.ShloMosaic.ValueIdx

variable {α : Type}

/-- Channel groups of 4, 3, 1 and 1 joined along the channel axis: channel `c` of the join is channel `c` of the first
    group, `c − 4` of the second, or the one channel of the third (`c = 7`) or the fourth (`c = 8`). -/
theorem join4_at (a : S200x4x100.Idx → α) (b : S200x3x100.Idx → α) (d e : S200x1x100.Idx → α)
    (h : Shape.Concatenates [S200x4x100, S200x3x100, S200x1x100, S200x1x100] S200x9x100 1)
    (r : Fin 200) (c : Fin 9) (p : Fin 100) :
    concatenate S200x9x100 1 [⟨S200x4x100, a⟩, ⟨S200x3x100, b⟩, ⟨S200x1x100, d⟩, ⟨S200x1x100, e⟩] h (ix3 r c p)
      = if h4 : c.val < 4 then a (ix3 r ⟨c.val, h4⟩ p)
        else if h7 : c.val < 7 then b (ix3 r ⟨c.val - 4, by omega⟩ p)
        else if c.val = 7 then d (ix3 r 0 p) else e (ix3 r 0 p) := by
  have hc := c.isLt
  by_cases h4 : c.val < 4
  · rw [dif_pos h4]
    exact concatenate_apply_piece (t := S200x9x100) 1 [⟨S200x4x100, a⟩, ⟨S200x3x100, b⟩, ⟨S200x1x100, d⟩, ⟨S200x1x100, e⟩] h
      (ix3 r c p) 0 (by show (0 : ℕ) < 4; omega) S200x4x100 a rfl rfl 0 rfl (ix3 r ⟨c.val, h4⟩ p)
      (fun b' hb => by match b' with | ⟨0, _⟩ => rfl | ⟨1, _⟩ => exact absurd rfl hb | ⟨2, _⟩ => rfl)
      (by show 0 + c.val = c.val; omega)
  · rw [dif_neg h4]
    by_cases h7 : c.val < 7
    · rw [dif_pos h7]
      exact concatenate_apply_piece (t := S200x9x100) 1 [⟨S200x4x100, a⟩, ⟨S200x3x100, b⟩, ⟨S200x1x100, d⟩, ⟨S200x1x100, e⟩] h
        (ix3 r c p) 1 (by show (1 : ℕ) < 4; omega) S200x3x100 b rfl rfl 4 rfl (ix3 r ⟨c.val - 4, by omega⟩ p)
        (fun b' hb => by match b' with | ⟨0, _⟩ => rfl | ⟨1, _⟩ => exact absurd rfl hb | ⟨2, _⟩ => rfl)
        (by show 4 + (c.val - 4) = c.val; omega)
    · rw [dif_neg h7]
      by_cases h8 : c.val = 7
      · rw [if_pos h8]
        exact concatenate_apply_piece (t := S200x9x100) 1 [⟨S200x4x100, a⟩, ⟨S200x3x100, b⟩, ⟨S200x1x100, d⟩, ⟨S200x1x100, e⟩] h
          (ix3 r c p) 2 (by show (2 : ℕ) < 4; omega) S200x1x100 d rfl rfl 7 rfl (ix3 r 0 p)
          (fun b' hb => by match b' with | ⟨0, _⟩ => rfl | ⟨1, _⟩ => exact absurd rfl hb | ⟨2, _⟩ => rfl)
          (by show 7 + 0 = c.val; omega)
      · rw [if_neg h8]
        exact concatenate_apply_piece (t := S200x9x100) 1 [⟨S200x4x100, a⟩, ⟨S200x3x100, b⟩, ⟨S200x1x100, d⟩, ⟨S200x1x100, e⟩] h
          (ix3 r c p) 3 (by show (3 : ℕ) < 4; omega) S200x1x100 e rfl rfl 8 rfl (ix3 r 0 p)
          (fun b' hb => by match b' with | ⟨0, _⟩ => rfl | ⟨1, _⟩ => exact absurd rfl hb | ⟨2, _⟩ => rfl)
          (by show 8 + 0 = c.val; omega)

/-- A [64, 1] column viewed [1, 64, 1] and spread over 200 pillars and 100 points reads, at (r, u, p), its entry u. -/
theorem col_spread_at (x : S64x1.Idx → α) (h1 : S64x1.ShapeCasts S1x64x1) (h2 : S1x64x1.Broadcasts S200x64x100)
    (r : Fin 200) (u : Fin 64) (p : Fin 100) :
    broadcastTo S200x64x100 (shapeCast S1x64x1 x h1) h2 (ix3 r u p) = x (ix2 u 0) := by
  refine (broadcastTo_apply _ h2 (ix3 r u p) (ix3 (0 : Fin 1) u (0 : Fin 1)) fun a => ?_).trans ?_
  · match a with
    | ⟨0, _⟩ => rfl
    | ⟨1, _⟩ => rfl
    | ⟨2, _⟩ => rfl
  · exact shapeCast_apply x h1 _ (ix2 u 0) (by
      rw [Shape.rowMajor_val_three, Shape.rowMajor_val_two]
      show u.val * 1 + 0 = (0 * 64 + u.val) * 1 + 0
      omega)

/-- Column `c` of the [64, 9] weights, taken as a vector, viewed [1, 64, 1] and spread over pillars and points, reads at
    (r, u, p) the weight (u, c). -/
theorem wcol_at (c : ℕ) (w : S64x9.Idx → α) (h0 : S64x9.Slices ![0, c] S64x1) (h1 : S64x1.ShapeCasts S64)
    (h2 : S64.ShapeCasts S1x64x1) (h3 : S1x64x1.Broadcasts S200x64x100) (k : Fin 9) (hk : k.val = c)
    (r : Fin 200) (u : Fin 64) (p : Fin 100) :
    broadcastTo S200x64x100 (shapeCast S1x64x1 (shapeCast S64 (extractStridedSlice S64x1 ![0, c] w h0) h1) h2) h3 (ix3 r u p)
      = w (ix2 u k) := by
  refine (broadcastTo_apply _ h3 (ix3 r u p) (ix3 (0 : Fin 1) u (0 : Fin 1)) fun a => ?_).trans ?_
  · match a with
    | ⟨0, _⟩ => rfl
    | ⟨1, _⟩ => rfl
    | ⟨2, _⟩ => rfl
  refine (shapeCast_apply _ h2 _ (ix1 u) (by
      rw [Shape.rowMajor_val_three, Shape.rowMajor_val_one]
      show u.val = (0 * 64 + u.val) * 1 + 0
      omega)).trans ?_
  refine (shapeCast_apply _ h1 _ (ix2 u (0 : Fin 1)) (by
      rw [Shape.rowMajor_val_two, Shape.rowMajor_val_one]
      show u.val * 1 + 0 = u.val
      omega)).trans ?_
  exact slice2_axis1_apply c w h0 u 0 k (by rw [hk]; rfl)

/-- Channel `c` of a [200, 9, 100] block, taken as a [200, 100] matrix, viewed [200, 1, 100] and spread over the 64
    output channels, reads at (r, u, p) the block's entry (r, c, p). -/
theorem frow_at (c : ℕ) (f : S200x9x100.Idx → α) (h0 : S200x9x100.Slices ![0, c, 0] S200x1x100)
    (h1 : S200x1x100.ShapeCasts S200x100) (h2 : S200x100.ShapeCasts S200x1x100) (h3 : S200x1x100.Broadcasts S200x64x100)
    (k : Fin 9) (hk : k.val = c) (r : Fin 200) (u : Fin 64) (p : Fin 100) :
    broadcastTo S200x64x100 (shapeCast S200x1x100 (shapeCast S200x100 (extractStridedSlice S200x1x100 ![0, c, 0] f h0) h1) h2) h3 (ix3 r u p)
      = f (ix3 r k p) := by
  rw [Layout3.broadcastTo_a1c_abc_apply, Layout3.shapeCast_ac_a1c_apply, ValueIdx.shapeCast_a1b_ab_apply]
  exact slice3_axis1_apply c f h0 r 0 p k (by rw [hk]; rfl)

end Cert.KernelIdeal.Body

end
-- ==== Proof.LibColumn.lean ====
/-
  A column kept as a unit trailing axis (what `jnp.sum(…, keepdims=True)` over the last axis produces), read at an
  index: a vector of length a viewed as an [a, 1] column, and an [a, 1] column broadcast along the rows of an
  [a, b] matrix. (The library has the leading-unit-axis forms and the row broadcast [1, b] → [a, b]; these are the
  trailing-unit-axis counterparts, for any extents.)
-/
import Idealize.ShloMosaic.Lib.Pipeline.Value
import Idealize.ShloMosaic.Lib.ValueIdx

namespace Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.LibLane3.lean ====
/-
  Float lane reductions over the LAST axis of a rank-3 array, read at an index on the extended reals, for any extents:
  over [a, b, c] into [a, b], at (i, j), a lane sum into the zero accumulator is the sum of the c entries (i, j, ·), and a
  lane maximum is the fold of max from the accumulator's value over those entries.
-/
import Idealize.ShloMosaic.PureOps.Ideal.Laws
import Idealize.ShloMosaic.Lib.ValueIdx

noncomputable section

open scoped BigOperators

namespace Idealize.ShloMosaic.Lane3

open Idealize.ShloMosaic Idealize.ShloMosaic.ValueIdx

/-- The reduced index `(i, j)` with the last coordinate `k` put back is `(i, j, k)`. -/
theorem lift_last {a b c : ℕ} (h : (⟨3, ![a, b, c]⟩ : Shape).Reduces [2] ⟨2, ![a, b]⟩)
    (i : Fin a) (j : Fin b) (k : Fin c) : h.lift (ix2 i j) k = ix3 i j k :=
  funext fun x => Fin.ext (by match x with | ⟨0, _⟩ => rfl | ⟨1, _⟩ => rfl | ⟨2, _⟩ => rfl)

/-- A lane sum over the last axis of an `[a, b, c]` array, at `(i, j)`: the sum of the entries `(i, j, ·)`. -/
theorem multiReduction_add_last_apply {a b c : ℕ} (src : FVec Ideal ⟨3, ![a, b, c]⟩ .f32) (acc : BitVec 32)
    (h : (⟨3, ![a, b, c]⟩ : Shape).Reduces [2] ⟨2, ![a, b]⟩) (hφ : FKind.Formats .f32)
    (hacc : acc = FKind.add.neutral .f32 hφ) (i : Fin a) (j : Fin b) :
    multiReduction .add [2] ⟨2, ![a, b]⟩ src acc h hφ hacc (ix2 i j) = ∑ k : Fin c, src (ix3 i j k) :=
  (Ideal.multiReduction_add_single src acc h hφ hacc (ix2 i j)).trans
    (Finset.sum_congr rfl fun k _ => congrArg src (lift_last h i j k))

/-- A lane maximum over the last axis of an `[a, b, c]` array, at `(i, j)`: the fold of max over the entries `(i, j, ·)`. -/
theorem multiReduction_max_last_apply {a b c : ℕ} (src : FVec Ideal ⟨3, ![a, b, c]⟩ .f32) (acc : BitVec 32)
    (h : (⟨3, ![a, b, c]⟩ : Shape).Reduces [2] ⟨2, ![a, b]⟩) (hφ : FKind.Formats .f32)
    (hacc : acc = FKind.maximumf.neutral .f32 hφ) (i : Fin a) (j : Fin b) :
    multiReduction .maximumf [2] ⟨2, ![a, b]⟩ src acc h hφ hacc (ix2 i j)
      = (Finset.univ : Finset (Fin c)).fold max (Ideal.ofBits .f32 acc) (fun k => src (ix3 i j k)) :=
  (Ideal.multiReduction_maximumf_single src acc h hφ hacc (ix2 i j)).trans
    (Finset.fold_congr fun k _ => congrArg src (lift_last h i j k))

end Idealize.ShloMosaic.Lane3

end
-- ==== Proof.BodyValue.lean ====
/-
  What the kernel body stores for one block of 200 pillars, entry by entry: the pillar layer with the folded scale and
  shift, of the block's own rows of the inputs.

  The block of features is channel-major, [200, 4, 100]: entry (r, k, p) is feature k of point p of the block's pillar r.
  The point count, the centre's two coordinates, the scale and the shift come as one-column arrays.
-/
import proofs.«121828_j19009525252691_1_alg».proof.Proof.Gen.KernelIdeal.Skeleton
import proofs.«121828_j19009525252691_1_alg».proof.Proof.Spec
import proofs.«121828_j19009525252691_1_alg».proof.Proof.BodyLayout
import proofs.«121828_j19009525252691_1_alg».proof.Proof.LibLayout3
import proofs.«121828_j19009525252691_1_alg».proof.Proof.LibMiddleUnit
import proofs.«121828_j19009525252691_1_alg».proof.Proof.LibColumn
import proofs.«121828_j19009525252691_1_alg».proof.Proof.LibLane3

noncomputable section

open scoped BigOperators

namespace Cert.KernelIdeal.Body

open Cert.KernelIdeal Cert.KernelIdeal.Gen Idealize.ShloMosaic Idealize.ShloMosaic.ValueIdx Cert.Pillar

variable (x0 : Vec Ideal S200x4x100 .f32) (x1 x2 x3 : Vec Ideal S200x1 .f32) (x4 : Vec Ideal S64x9 .f32)
  (x5 x6 : Vec Ideal S64x1 .f32)

/-- The masked, augmented channels of the block: entry (r, c, p) is channel `c` of point `p` of pillar `r`, times the
    point's mask. -/
theorem pay2_at (r : Fin 200) (c : Fin 9) (p : Fin 100) :
    k0_pay2 (F := Ideal) x0 x3 x1 x2 (ix3 r c p)
      = chan (fun k => x0 (ix3 r k p)) (mean (fun q k => x0 (ix3 r k q)) (x3 (ix2 r 0))) (x1 (ix2 r 0)) (x2 (ix2 r 0)) c
          * maskNum (x3 (ix2 r 0)) p := by
  unfold k0_pay2
  dsimp only
  rw [mulf_apply]
  refine congrArg₂ (· * ·) ?_ ?_
  · -- the nine channels
    rw [join4_at]
    unfold chan
    have hc := c.isLt
    by_cases h4 : c.val < 4
    · rw [dif_pos h4, dif_pos h4, shapeCast_self]
    · rw [dif_neg h4, dif_neg h4]
      by_cases h7 : c.val < 7
      · rw [dif_pos h7, dif_pos h7, subf_apply]
        refine congrArg₂ (· - ·) ?_ ?_
        · rw [slice3_axis1_apply 0 _ _ r ⟨c.val - 4, by omega⟩ p ⟨c.val - 4, by omega⟩ (by simp), shapeCast_self]
        · rw [Layout3.broadcastTo_ab1_abc_apply, divf_apply, Layout3.shapeCast_ab_ab1_apply]
          unfold mean
          refine congrArg₂ Ideal.div ?_ ?_
          · refine (Lane3.multiReduction_add_last_apply _ _ _ _ _ r ⟨c.val - 4, by omega⟩).trans
              (Finset.sum_congr rfl fun q _ => ?_)
            rw [slice3_axis1_apply 0 _ _ r ⟨c.val - 4, by omega⟩ q ⟨c.val - 4, by omega⟩ (by simp), shapeCast_self]
          · rw [Layout3.broadcastTo_a1c_abc_apply, Layout3.shapeCast_ab_ab1_apply, shapeCast_self]
      · rw [dif_neg h7, dif_neg h7]
        by_cases h8 : c.val = 7
        · rw [if_pos h8, if_pos h8, Layout3.shapeCast_ac_a1c_apply, subf_apply, ValueIdx.shapeCast_a1b_ab_apply,
            slice3_axis1_apply 0 _ _ r 0 p 0 (by simp), shapeCast_self, ValueIdx.broadcastTo_a1_ab_apply, shapeCast_self]
        · rw [if_neg h8, if_neg h8, Layout3.shapeCast_ac_a1c_apply, subf_apply, ValueIdx.shapeCast_a1b_ab_apply,
            slice3_axis1_apply 1 _ _ r 0 p 1 (by simp), shapeCast_self, ValueIdx.broadcastTo_a1_ab_apply, shapeCast_self]
  · -- the mask
    rw [Layout3.broadcastTo_a1c_abc_apply, Layout3.shapeCast_ac_a1c_apply, sitofp_apply, extui_apply, cmpf_apply,
      sitofp_apply, ValueIdx.broadcastTo_a1_ab_apply, shapeCast_self, iota_single_apply]
    rfl

/-- THE BLOCK the body stores: entry (r, u) is the layer's value, in its folded spelling, for the block's pillar `r` and
    output channel `u`: the nine masked channels are multiplied by the weight row and added one after the other onto a
    zero, scaled, shifted, rectified, and the maximum is taken over the 100 points. -/
theorem pay1_at (r : Fin 200) (u : Fin 64) :
    k0_pay1 (F := Ideal) (k0_pay2 x0 x3 x1 x2) x4
        (k0_pay6 (k0_pay2 x0 x3 x1 x2) x4 (k0_pay3 (F := Ideal)) (k0_pay4 x4) (k0_pay5 x0 x3 x1 x2))
        (k0_pay7 x4) (k0_pay8 (k0_pay2 x0 x3 x1 x2)) x5 x6 (ix2 r u)
      = outFolded (fun p k => x0 (ix3 r k p)) (x3 (ix2 r 0)) (x1 (ix2 r 0)) (x2 (ix2 r 0)) (fun k => x4 (ix2 u k))
          (x5 (ix2 u 0)) (x6 (ix2 u 0)) := by
  unfold k0_pay1
  dsimp only
  refine (Lane3.multiReduction_max_last_apply _ _ _ _ _ r u).trans ?_
  unfold outFolded
  refine Finset.fold_congr fun p _ => ?_
  rw [maximumf_apply, addf_apply, mulf_apply, broadcast_apply]
  refine congrArg₂ max (congrArg₂ (· + ·) (congrArg₂ (· * ·) ?_ ?_) ?_) rfl
  · -- the unrolled accumulation over the nine channels
    unfold k0_pay6 k0_pay7 k0_pay8 k0_pay4 k0_pay5 k0_pay3
    dsimp only
    simp only [addf_apply, mulf_apply, broadcast_apply]
    rw [wcol_at 0 x4 _ _ _ _ 0 rfl r u p, wcol_at 1 x4 _ _ _ _ 1 rfl r u p, wcol_at 2 x4 _ _ _ _ 2 rfl r u p,
      wcol_at 3 x4 _ _ _ _ 3 rfl r u p, wcol_at 4 x4 _ _ _ _ 4 rfl r u p, wcol_at 5 x4 _ _ _ _ 5 rfl r u p,
      wcol_at 6 x4 _ _ _ _ 6 rfl r u p, wcol_at 7 x4 _ _ _ _ 7 rfl r u p, wcol_at 8 x4 _ _ _ _ 8 rfl r u p,
      frow_at 0 _ _ _ _ _ 0 rfl r u p, frow_at 1 _ _ _ _ _ 1 rfl r u p, frow_at 2 _ _ _ _ _ 2 rfl r u p,
      frow_at 3 _ _ _ _ _ 3 rfl r u p, frow_at 4 _ _ _ _ _ 4 rfl r u p, frow_at 5 _ _ _ _ _ 5 rfl r u p,
      frow_at 6 _ _ _ _ _ 6 rfl r u p, frow_at 7 _ _ _ _ _ 7 rfl r u p, frow_at 8 _ _ _ _ _ 8 rfl r u p]
    refine (chain9 (fun c => x4 (ix2 u c)) (fun c => k0_pay2 (F := Ideal) x0 x3 x1 x2 (ix3 r c p))).trans
      (Finset.sum_congr rfl fun c _ => ?_)
    rw [pay2_at]
  · rw [col_spread_at, shapeCast_self]
  · rw [col_spread_at, shapeCast_self]

/-- The same, at any index of the stored block. -/
theorem pay1_idx (j : S200x64.Idx) :
    k0_pay1 (F := Ideal) (k0_pay2 x0 x3 x1 x2) x4
        (k0_pay6 (k0_pay2 x0 x3 x1 x2) x4 (k0_pay3 (F := Ideal)) (k0_pay4 x4) (k0_pay5 x0 x3 x1 x2))
        (k0_pay7 x4) (k0_pay8 (k0_pay2 x0 x3 x1 x2)) x5 x6 j
      = outFolded (fun p k => x0 (ix3 (j 0) k p)) (x3 (ix2 (j 0) 0)) (x1 (ix2 (j 0) 0)) (x2 (ix2 (j 0) 0))
          (fun k => x4 (ix2 (j 1) k)) (x5 (ix2 (j 1) 0)) (x6 (ix2 (j 1) 0)) := by
  refine Eq.trans ?_ (pay1_at x0 x1 x2 x3 x4 x5 x6 (j 0) (j 1))
  exact congrArg _ (eq_ix2 j)

end Cert.KernelIdeal.Body

end
-- ==== Proof.Entry.lean ====
/-
  The arrays the kernel's one region finds, read at an index: the host operations before the region transpose the
  features to channel-major, turn the point counts into numbers, compute the pillar centres from the integer grid
  indices, and fold the batch-norm coefficients into one scale and one shift per output channel.
-/
import proofs.«121828_j19009525252691_1_alg».proof.Proof.Gen.KernelIdeal.Frame
import proofs.«121828_j19009525252691_1_alg».proof.Proof.Spec
import proofs.«121828_j19009525252691_1_alg».proof.Proof.LibColumn
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.Entry

open Cert.KernelIdeal Cert.KernelIdeal.Gen Idealize.ShloMosaic Idealize.ShloMosaic.TcCoe Idealize.SL.Sem
open Idealize.ShloMosaic.ValueIdx Idealize.ShloMosaic.StableHlo Cert.Pillar

variable (m : (ℓ : Loc nD τ sig) → Buf (Elt Ideal) ℓ)

/-- An [a, 1] column viewed as a vector reads, at i, its entry (i, 0). -/
theorem shapeCast_a1_a_apply {α : Type} {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- The inverse deviation of output channel `u`: the reciprocal square root of its running variance plus 0.001. -/
abbrev invDev (c : Dev nD) (u : Fin 64) : EReal :=
  Ideal.rsqrt (@HAdd.hAdd EReal EReal EReal _ (m ((c : Thread nD τ).loc main_arg7) (ix1 u)) (Ideal.ofBits .f32 0x3A83126F#32))

/-- The features, channel-major: entry (n, k, p) is feature k of point p of pillar n. -/
theorem features_at (c : Dev nD) (n : Fin 16000) (k : Fin 4) (p : Fin 100) :
    (V m c main_v0 : S16000x4x100.Idx → EReal) (ix3 n k p) = m ((c : Thread nD τ).loc main_arg0) (ix3 n p k) := by
  have e : (V m c main_v0 : S16000x4x100.Idx → EReal)
      = transpose S16000x4x100 [0, 2, 1] (m ((c : Thread nD τ).loc main_arg0)) transposes_S16000x100x4_S16000x4x100_0_2_1 := by
    dsimp only [V, hostOps0]; after_results_simp <;> rfl
  rw [e]
  exact transpose_ix3_021_apply _ _ n k p

/-- The point counts as numbers, one column. -/
theorem count_at (c : Dev nD) (n : Fin 16000) :
    (V m c main_v2 : S16000x1.Idx → EReal) (ix2 n 0)
      = FloatOps.sitofp (F := Ideal) .f32 (m ((c : Thread nD τ).loc main_arg2) (ix1 n)) := by
  have e : (V m c main_v2 : S16000x1.Idx → EReal)
      = shapeCast S16000x1 (sitofp (F := Ideal) .f32 (m ((c : Thread nD τ).loc main_arg2))) shapeCasts_S16000_S16000x1 := by
    dsimp only [V, hostOps0]; after_results_simp <;> rfl
  rw [e, ValueIdx.shapeCast_a_a1_apply]
  rfl

/-- The pillar centres' two coordinates, one column each. -/
theorem centreX_at (c : Dev nD) (n : Fin 16000) :
    (V m c main_v10 : S16000x1.Idx → EReal) (ix2 n 0) = centreX (m ((c : Thread nD τ).loc main_arg1) (ix2 n 2)) := by
  have e : (V m c main_v10 : S16000x1.Idx → EReal)
      = shapeCast S16000x1 (addf (mulf (sitofp (F := Ideal) .f32 (shapeCast S16000
          (extractStridedSlice S16000x1 ![0, 2] (m ((c : Thread nD τ).loc main_arg1)) slices_S16000x3_S16000x1_0_2) shapeCasts_S16000x1_S16000))
          (broadcastInDim S16000 ![] bcast_S_S16000 (constant (F := Ideal) S_ .f32 0x3E23D70A#32)))
          (broadcastInDim S16000 ![] bcast_S_S16000 (constant (F := Ideal) S_ .f32 0x3DA3D70A#32))) shapeCasts_S16000_S16000x1 := by
    dsimp only [V, hostOps0]; after_results_simp <;> rfl
  rw [e, ValueIdx.shapeCast_a_a1_apply, addf_apply, mulf_apply, sitofp_apply, shapeCast_a1_a_apply,
    slice2_axis1_apply 2 _ _ n 0 2 rfl]
  rfl

theorem centreY_at (c : Dev nD) (n : Fin 16000) :
    (V m c main_v18 : S16000x1.Idx → EReal) (ix2 n 0) = centreY (m ((c : Thread nD τ).loc main_arg1) (ix2 n 1)) := by
  have e : (V m c main_v18 : S16000x1.Idx → EReal)
      = shapeCast S16000x1 (addf (mulf (sitofp (F := Ideal) .f32 (shapeCast S16000
          (extractStridedSlice S16000x1 ![0, 1] (m ((c : Thread nD τ).loc main_arg1)) slices_S16000x3_S16000x1_0_1) shapeCasts_S16000x1_S16000))
          (broadcastInDim S16000 ![] bcast_S_S16000 (constant (F := Ideal) S_ .f32 0x3E23D70A#32)))
          (broadcastInDim S16000 ![] bcast_S_S16000 (constant (F := Ideal) S_ .f32 0xC21FAE14#32))) shapeCasts_S16000_S16000x1 := by
    dsimp only [V, hostOps0]; after_results_simp <;> rfl
  rw [e, ValueIdx.shapeCast_a_a1_apply, addf_apply, mulf_apply, sitofp_apply, shapeCast_a1_a_apply,
    slice2_axis1_apply 1 _ _ n 0 1 rfl]
  rfl

/-- The folded scale: gain × inverse deviation, one column. -/
theorem scale_at (c : Dev nD) (u : Fin 64) :
    (V m c main_v25 : S64x1.Idx → EReal) (ix2 u 0)
      = @HMul.hMul EReal EReal EReal _ (m ((c : Thread nD τ).loc main_arg4) (ix1 u)) (invDev m c u) := by
  have e : (V m c main_v25 : S64x1.Idx → EReal)
      = shapeCast S64x1 (mulf (m ((c : Thread nD τ).loc main_arg4)) (Host.rsqrt (addf (m ((c : Thread nD τ).loc main_arg7))
          (broadcastInDim S64 ![] bcast_S_S64 (constant (F := Ideal) S_ .f32 0x3A83126F#32))))) shapeCasts_S64_S64x1 := by
    dsimp only [V, hostOps0]; after_results_simp <;> rfl
  rw [e, ValueIdx.shapeCast_a_a1_apply, mulf_apply]
  rfl

/-- The folded shift: offset − running mean × scale, one column. -/
theorem shift_at (c : Dev nD) (u : Fin 64) :
    (V m c main_v26 : S64x1.Idx → EReal) (ix2 u 0)
      = @HSub.hSub EReal EReal EReal _ (m ((c : Thread nD τ).loc main_arg5) (ix1 u))
          (@HMul.hMul EReal EReal EReal _ (m ((c : Thread nD τ).loc main_arg6) (ix1 u))
            (@HMul.hMul EReal EReal EReal _ (m ((c : Thread nD τ).loc main_arg4) (ix1 u)) (invDev m c u))) := by
  have e : (V m c main_v26 : S64x1.Idx → EReal)
      = shapeCast S64x1 (subf (m ((c : Thread nD τ).loc main_arg5)) (mulf (m ((c : Thread nD τ).loc main_arg6))
          (mulf (m ((c : Thread nD τ).loc main_arg4)) (Host.rsqrt (addf (m ((c : Thread nD τ).loc main_arg7))
          (broadcastInDim S64 ![] bcast_S_S64 (constant (F := Ideal) S_ .f32 0x3A83126F#32))))))) shapeCasts_S64_S64x1 := by
    dsimp only [V, hostOps0]; after_results_simp <;> rfl
  rw [e, ValueIdx.shapeCast_a_a1_apply, subf_apply, mulf_apply, mulf_apply]
  rfl

end Cert.KernelIdeal.Entry

end
-- ==== Proof.Whole.lean ====
/-
  From blocks to the whole result array: grid point t of the 80 handles pillars 200·t … 200·t + 199, every input window
  with a pillar axis moves with it, the weights, the scale and the shift stay put, and the 80 output blocks tile the
  [16000, 64] result. So the result array after the run is, entry by entry, the pillar layer in its folded spelling
  of the argument arrays.
-/
import proofs.«121828_j19009525252691_1_alg».proof.Proof.Gen.KernelIdeal.Value
import proofs.«121828_j19009525252691_1_alg».proof.Proof.Spec
import proofs.«121828_j19009525252691_1_alg».proof.Proof.BodyValue
import proofs.«121828_j19009525252691_1_alg».proof.Proof.Entry

noncomputable section

namespace Cert.KernelIdeal.Whole

open Cert.KernelIdeal Cert.KernelIdeal.Gen Idealize.ShloMosaic Idealize.ShloMosaic.TcCoe Idealize.SL.Sem
open Idealize.ShloMosaic.ValueIdx Cert.Pillar
open Idealize.ShloMosaic.Pipeline (Dat)

variable (m : (ℓ : Loc nD τ sig) → Buf (Elt Ideal) ℓ) (ρ : Dev nD → PrngReg)

/-- The layer's value for pillar `n` and output channel `u`, of the argument arrays. -/
def layerAt (c : Dev nD) (n : Fin 16000) (u : Fin 64) : EReal :=
  outFolded (fun p k => m ((c : Thread nD τ).loc main_arg0) (ix3 n p k))
    (FloatOps.sitofp (F := Ideal) .f32 (m ((c : Thread nD τ).loc main_arg2) (ix1 n)))
    (centreX (m ((c : Thread nD τ).loc main_arg1) (ix2 n 2))) (centreY (m ((c : Thread nD τ).loc main_arg1) (ix2 n 1)))
    (fun k => m ((c : Thread nD τ).loc main_arg3) (ix2 u k))
    (@HMul.hMul EReal EReal EReal _ (m ((c : Thread nD τ).loc main_arg4) (ix1 u)) (Entry.invDev m c u))
    (@HSub.hSub EReal EReal EReal _ (m ((c : Thread nD τ).loc main_arg5) (ix1 u))
      (@HMul.hMul EReal EReal EReal _ (m ((c : Thread nD τ).loc main_arg6) (ix1 u))
        (@HMul.hMul EReal EReal EReal _ (m ((c : Thread nD τ).loc main_arg4) (ix1 u)) (Entry.invDev m c u))))

/-- THE RESULT ARRAY as one function of the argument arrays. -/
def layer (c : Dev nD) : S16000x64.Idx → EReal := fun i => layerAt m c (i 0) (i 1)

theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps, decided over the 80 grid points: the windows with a pillar axis are at block `t` along it and at
    block 0 along every other axis; the weights, the scale and the shift are at block 0 throughout. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- The pillar that row `r` of grid point `t`'s blocks holds. -/
def row (t : Fin cfg0.N) (r : Fin 200) : Fin 16000 :=
  ⟨t.val * 200 + r.val, by have h : t.val < grid0.N := t.isLt; rw [N_0] at h; have := r.isLt; omega⟩

/-! ## Each window's block, where it lies in its array -/

theorem emb0 (t : Fin cfg0.N) (r : Fin 200) (k : Fin 4) (p : Fin 100) :
    ((cfg0.win 0).blk t).view.emb (ix3 r k p) = ix3 (row t r) k p := by
  obtain ⟨e0, e1, e2, -⟩ := idx_facts t
  funext a; apply Fin.ext
  match a with
  | ⟨0, _⟩ => show win0_0.index t (0 : Fin 3) * 200 + 1 * r.val = t.val * 200 + r.val; omega
  | ⟨1, _⟩ => show win0_0.index t (1 : Fin 3) * 4 + 1 * k.val = k.val; omega
  | ⟨2, _⟩ => show win0_0.index t (2 : Fin 3) * 100 + 1 * p.val = p.val; omega

theorem emb1 (t : Fin cfg0.N) (r : Fin 200) :
    ((cfg0.win 1).blk t).view.emb (ix2 r 0) = ix2 (row t r) 0 := by
  obtain ⟨-, -, -, e0, e1, -⟩ := idx_facts t
  funext a; apply Fin.ext
  match a with
  | ⟨0, _⟩ => show win0_1.index t (0 : Fin 2) * 200 + 1 * r.val = t.val * 200 + r.val; omega
  | ⟨1, _⟩ => show win0_1.index t (1 : Fin 2) * 1 + 1 * 0 = 0; omega

theorem emb2 (t : Fin cfg0.N) (r : Fin 200) :
    ((cfg0.win 2).blk t).view.emb (ix2 r 0) = ix2 (row t r) 0 := by
  obtain ⟨-, -, -, -, -, e0, e1, -⟩ := idx_facts t
  funext a; apply Fin.ext
  match a with
  | ⟨0, _⟩ => show win0_2.index t (0 : Fin 2) * 200 + 1 * r.val = t.val * 200 + r.val; omega
  | ⟨1, _⟩ => show win0_2.index t (1 : Fin 2) * 1 + 1 * 0 = 0; omega

theorem emb3 (t : Fin cfg0.N) (r : Fin 200) :
    ((cfg0.win 3).blk t).view.emb (ix2 r 0) = ix2 (row t r) 0 := by
  obtain ⟨-, -, -, -, -, -, -, e0, e1, -⟩ := idx_facts t
  funext a; apply Fin.ext
  match a with
  | ⟨0, _⟩ => show win0_3.index t (0 : Fin 2) * 200 + 1 * r.val = t.val * 200 + r.val; omega
  | ⟨1, _⟩ => show win0_3.index t (1 : Fin 2) * 1 + 1 * 0 = 0; omega

theorem emb4 (t : Fin cfg0.N) (u : Fin 64) (k : Fin 9) :
    ((cfg0.win 4).blk t).view.emb (ix2 u k) = ix2 u k := by
  obtain ⟨-, -, -, -, -, -, -, -, -, e0, e1, -⟩ := idx_facts t
  funext a; apply Fin.ext
  match a with
  | ⟨0, _⟩ => show win0_4.index t (0 : Fin 2) * 64 + 1 * u.val = u.val; omega
  | ⟨1, _⟩ => show win0_4.index t (1 : Fin 2) * 9 + 1 * k.val = k.val; omega

theorem emb5 (t : Fin cfg0.N) (u : Fin 64) :
    ((cfg0.win 5).blk t).view.emb (ix2 u 0) = ix2 u 0 := by
  obtain ⟨-, -, -, -, -, -, -, -, -, -, -, e0, e1, -⟩ := idx_facts t
  funext a; apply Fin.ext
  match a with
  | ⟨0, _⟩ => show win0_5.index t (0 : Fin 2) * 64 + 1 * u.val = u.val; omega
  | ⟨1, _⟩ => show win0_5.index t (1 : Fin 2) * 1 + 1 * 0 = 0; omega

theorem emb6 (t : Fin cfg0.N) (u : Fin 64) :
    ((cfg0.win 6).blk t).view.emb (ix2 u 0) = ix2 u 0 := by
  obtain ⟨-, -, -, -, -, -, -, -, -, -, -, -, -, e0, e1, -⟩ := idx_facts t
  funext a; apply Fin.ext
  match a with
  | ⟨0, _⟩ => show win0_6.index t (0 : Fin 2) * 64 + 1 * u.val = u.val; omega
  | ⟨1, _⟩ => show win0_6.index t (1 : Fin 2) * 1 + 1 * 0 = 0; omega

theorem emb7 (t : Fin cfg0.N) (j : S200x64.Idx) :
    ((cfg0.win 7).blk t).view.emb j = ix2 (row t (j 0)) (j 1) := by
  obtain ⟨-, -, -, -, -, -, -, -, -, -, -, -, -, -, -, e0, e1⟩ := idx_facts t
  funext a; apply Fin.ext
  match a with
  | ⟨0, _⟩ => show win0_7.index t (0 : Fin 2) * 200 + 1 * (j 0).val = t.val * 200 + (j 0).val; omega
  | ⟨1, _⟩ => show win0_7.index t (1 : Fin 2) * 64 + 1 * (j 1).val = (j 1).val; omega

/-! ## Each window's block, entry by entry, of the argument arrays -/

theorem blk0_at (c : Dev nD) (t : Fin cfg0.N) (r : Fin 200) (k : Fin 4) (p : Fin 100) :
    iblk m c 0 t (ix3 r k p) = m ((c : Thread nD τ).loc main_arg0) (ix3 (row t r) p k) := by
  show (V m c main_v0 : S16000x4x100.Idx → EReal) (((cfg0.win 0).blk t).view.emb (ix3 r k p)) = _
  rw [emb0]
  exact Entry.features_at m c (row t r) k p

theorem blk1_at (c : Dev nD) (t : Fin cfg0.N) (r : Fin 200) :
    iblk m c 1 t (ix2 r 0) = centreX (m ((c : Thread nD τ).loc main_arg1) (ix2 (row t r) 2)) := by
  show (V m c main_v10 : S16000x1.Idx → EReal) (((cfg0.win 1).blk t).view.emb (ix2 r 0)) = _
  rw [emb1]
  exact Entry.centreX_at m c (row t r)

theorem blk2_at (c : Dev nD) (t : Fin cfg0.N) (r : Fin 200) :
    iblk m c 2 t (ix2 r 0) = centreY (m ((c : Thread nD τ).loc main_arg1) (ix2 (row t r) 1)) := by
  show (V m c main_v18 : S16000x1.Idx → EReal) (((cfg0.win 2).blk t).view.emb (ix2 r 0)) = _
  rw [emb2]
  exact Entry.centreY_at m c (row t r)

theorem blk3_at (c : Dev nD) (t : Fin cfg0.N) (r : Fin 200) :
    iblk m c 3 t (ix2 r 0) = FloatOps.sitofp (F := Ideal) .f32 (m ((c : Thread nD τ).loc main_arg2) (ix1 (row t r))) := by
  show (V m c main_v2 : S16000x1.Idx → EReal) (((cfg0.win 3).blk t).view.emb (ix2 r 0)) = _
  rw [emb3]
  exact Entry.count_at m c (row t r)

theorem blk4_at (c : Dev nD) (t : Fin cfg0.N) (u : Fin 64) (k : Fin 9) :
    iblk m c 4 t (ix2 u k) = m ((c : Thread nD τ).loc main_arg3) (ix2 u k) := by
  show (V m c main_arg3 : S64x9.Idx → EReal) (((cfg0.win 4).blk t).view.emb (ix2 u k)) = _
  rw [emb4, V_main_arg3]

theorem blk5_at (c : Dev nD) (t : Fin cfg0.N) (u : Fin 64) :
    iblk m c 5 t (ix2 u 0)
      = @HMul.hMul EReal EReal EReal _ (m ((c : Thread nD τ).loc main_arg4) (ix1 u)) (Entry.invDev m c u) := by
  show (V m c main_v25 : S64x1.Idx → EReal) (((cfg0.win 5).blk t).view.emb (ix2 u 0)) = _
  rw [emb5]
  exact Entry.scale_at m c u

theorem blk6_at (c : Dev nD) (t : Fin cfg0.N) (u : Fin 64) :
    iblk m c 6 t (ix2 u 0)
      = @HSub.hSub EReal EReal EReal _ (m ((c : Thread nD τ).loc main_arg5) (ix1 u))
          (@HMul.hMul EReal EReal EReal _ (m ((c : Thread nD τ).loc main_arg6) (ix1 u))
            (@HMul.hMul EReal EReal EReal _ (m ((c : Thread nD τ).loc main_arg4) (ix1 u)) (Entry.invDev m c u))) := by
  show (V m c main_v26 : S64x1.Idx → EReal) (((cfg0.win 6).blk t).view.emb (ix2 u 0)) = _
  rw [emb6]
  exact Entry.shift_at m c u

/-! ## What a point writes back, the cover, the array after the run -/

/-- The layer's folded spelling depends only on its seven inputs, entry by entry. -/
theorem outFolded_congr {f f' : Fin 100 → Fin 4 → EReal} {cnt cnt' cx cx' cy cy' : EReal} {w w' : Fin 9 → EReal}
    {sc sc' sh sh' : EReal} (hf : ∀ p k, f p k = f' p k) (hcnt : cnt = cnt') (hcx : cx = cx') (hcy : cy = cy')
    (hw : ∀ k, w k = w' k) (hsc : sc = sc') (hsh : sh = sh') :
    outFolded f cnt cx cy w sc sh = outFolded f' cnt' cx' cy' w' sc' sh' := by
  have e1 : f = f' := funext fun p => funext fun k => hf p k
  have e2 : w = w' := funext hw
  subst e1 e2 hcnt hcx hcy hsc hsh
  rfl

/-- What the body leaves in the output's staging buffer, entry by entry, for any contents of the input buffers. -/
theorem out_block (x0 : Vec Ideal S200x4x100 .f32) (x1 x2 x3 : Vec Ideal S200x1 .f32) (x4 : Vec Ideal S64x9 .f32)
    (x5 x6 : Vec Ideal S64x1 .f32) (j : S200x64.Idx) :
    out0_7 (F := Ideal) x0 x1 x2 x3 x4 x5 x6 j
      = outFolded (fun p k => x0 (ix3 (j 0) k p)) (x3 (ix2 (j 0) 0)) (x1 (ix2 (j 0) 0)) (x2 (ix2 (j 0) 0))
          (fun k => x4 (ix2 (j 1) k)) (x5 (ix2 (j 1) 0)) (x6 (ix2 (j 1) 0)) := by
  unfold out0_7
  rw [View.canon_unit_zero hz2]
  simp only [View.ld_unit_zero (S := S200x4x100) hz3, View.ld_unit_zero (S := S200x1) hz2,
    View.ld_unit_zero (S := S64x9) hz2, View.ld_unit_zero (S := S64x1) hz2]
  exact Body.pay1_idx x0 x1 x2 x3 x4 x5 x6 j

/-- WHAT POINT `t` WRITES BACK is block `t` of the layer of the argument arrays. -/
theorem flushed_eq (c : Dev nD) (t : Fin cfg0.N) :
    (dats m 0 c).flushed 7 t = ((cfg0.win 7).blk t).view.read (Elt Ideal) (layer m c) := by
  rw [Cert.KernelIdeal.Value.flushed7]
  funext j
  show out0_7 (F := Ideal) (iblk m c 0 t) (iblk m c 1 t) (iblk m c 2 t) (iblk m c 3 t) (iblk m c 4 t) (iblk m c 5 t)
      (iblk m c 6 t) j = layer m c (((cfg0.win 7).blk t).view.emb j)
  rw [emb7]
  refine (out_block (iblk m c 0 t) (iblk m c 1 t) (iblk m c 2 t) (iblk m c 3 t) (iblk m c 4 t) (iblk m c 5 t)
    (iblk m c 6 t) j).trans ?_
  show _ = layerAt m c (row t (j 0)) (j 1)
  unfold layerAt
  exact outFolded_congr (fun p k => blk0_at m c t (j 0) k p) (blk3_at m c t (j 0)) (blk1_at m c t (j 0))
    (blk2_at m c t (j 0)) (fun k => blk4_at m c t (j 1) k) (blk5_at m c t (j 1)) (blk6_at m c t (j 1))

/-- An index of the result array is in point `t`'s block iff each coordinate is in the block's range on its axis. -/
theorem mem_blk (t : Fin cfg0.N) (i : S16000x64.Idx) :
    i ∈ ((cfg0.win 7).blk t).view.set ↔ ∀ a : Fin 2, win0_7.index t a * S200x64.size a ≤ (i a).val
      ∧ (i a).val < win0_7.index t a * S200x64.size a + S200x64.size a := by
  show i ∈ ((View.whole main_v27).slice (win0_7.rect t)).set ↔ _
  rw [View.set_slice_whole, Rect.mem_set_unit]
  exact Iff.rfl

/-- Every entry of the result array lies in the block of the point that handles its pillar. -/
theorem cover (i : S16000x64.Idx) :
    ∃ t : Fin cfg0.N, (cfg0.win 7).flush t = true ∧ i ∈ ((cfg0.win 7).blk t).view.set := by
  have hi0 : (i 0).val < 16000 := (i 0).isLt
  have hi1 : (i 1).val < 64 := (i 1).isLt
  have hN : (i 0).val / 200 < cfg0.N := by show _ < grid0.N; rw [N_0]; omega
  refine ⟨⟨(i 0).val / 200, hN⟩, flush0_7 _, ?_⟩
  rw [mem_blk]
  obtain ⟨-, -, -, -, -, -, -, -, -, -, -, -, -, -, -, e0, e1⟩ := idx_facts ⟨(i 0).val / 200, hN⟩
  intro a
  match a with
  | ⟨0, _⟩ =>
    show win0_7.index ⟨(i 0).val / 200, hN⟩ (0 : Fin 2) * 200 ≤ (i 0).val
      ∧ (i 0).val < win0_7.index ⟨(i 0).val / 200, hN⟩ (0 : Fin 2) * 200 + 200
    rw [e0]; show (i 0).val / 200 * 200 ≤ (i 0).val ∧ (i 0).val < (i 0).val / 200 * 200 + 200; omega
  | ⟨1, _⟩ =>
    show win0_7.index ⟨(i 0).val / 200, hN⟩ (1 : Fin 2) * 64 ≤ (i 1).val
      ∧ (i 1).val < win0_7.index ⟨(i 0).val / 200, hN⟩ (1 : Fin 2) * 64 + 64
    rw [e1]; omega

/-- THE RESULT ARRAY after the run is the layer of the argument arrays. -/
theorem final (c : Dev nD) : (dats m 0 c).arrAt 7 cfg0.N = layer m c :=
  (dats m 0 c).arrAt_eq_of_cover 7 (layer m c) (fun t _ => flushed_eq m c t) cover

/-- The kernel's run: the result array at the layer of the argument arrays, the arguments unchanged. -/
theorem run : θ_run defs (onTc (τ := τ) (main (F := Ideal))) ⟨m, fun _ => 0, ρ⟩ fun r => ∀ c : Dev nD,
      r.2.mem ((c : Thread nD τ).loc main_v27) = layer m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩)
    (Cert.KernelIdeal.Value.run_blocks m ρ)

end Cert.KernelIdeal.Whole

end
-- ==== Proof.LibHostMid3.lean ====
/-
  The host's maximum along the MIDDLE axis of a rank-3 array, read at an index, on the extended reals and for any
  extents: a `stablehlo.reduce` over axis 1 of an [a, b, c] array whose body takes the larger of two values is, at
  (i, j), the fold of max from the initial value over the b entries (i, ·, j).
-/
import Idealize.ShloMosaic.PureOps.Ideal.Laws
import Idealize.ShloMosaic.Lib.ValueIdx

noncomputable section

open scoped BigOperators

namespace Idealize.ShloMosaic.HostMid3

open Idealize.ShloMosaic Idealize.ShloMosaic.ValueIdx

/-- The reduced index `(i, j)` with the middle coordinate `k` put back is `(i, k, j)`. -/
theorem lift_mid {a b c : ℕ} (h : (⟨3, ![a, b, c]⟩ : Shape).Reduces [1] ⟨2, ![a, c]⟩)
    (i : Fin a) (j : Fin c) (k : Fin b) : h.lift (ix2 i j) k = ix3 i k j :=
  funext fun x => Fin.ext (by match x with | ⟨0, _⟩ => rfl | ⟨1, _⟩ => rfl | ⟨2, _⟩ => rfl)

/-- On the extended reals the float maximum is the order's. -/
theorem maximumf_eq_max : (FloatOps.maximumf (F := Ideal) (φ := .f32)) = (max : EReal → EReal → EReal) := by
  funext x y; rfl

/-- A host reduce with max over the middle axis of an `[a, b, c]` array, at `(i, j)`: the fold of max over the
    entries `(i, ·, j)`. -/
theorem reduce_max_mid_apply {a b c : ℕ} (z : (⟨3, ![a, b, c]⟩ : Shape).Idx → EReal) {u : Shape} (init : u.Idx → EReal)
    (h' : (⟨3, ![a, b, c]⟩ : Shape).ReducesTo [1] ⟨2, ![a, c]⟩) (h : (⟨3, ![a, b, c]⟩ : Shape).Reduces [1] ⟨2, ![a, c]⟩)
    (hu : 0 < u.numel) (i : Fin a) (j : Fin c) :
    Host.reduce (max : EReal → EReal → EReal) z init h' hu (ix2 i j)
      = (Finset.univ : Finset (Fin b)).fold max (init (Shape.Idx.first hu)) (fun k => z (ix3 i k j)) :=
  (Host.reduce_eq_fold_single max z init h' h hu (ix2 i j)).trans
    (Finset.fold_congr fun k _ => congrArg z (lift_mid h i j k))

end Idealize.ShloMosaic.HostMid3

end
-- ==== Proof.RefValue.lean ====
/-
  The reference program's result, entry by entry, is the pillar layer in its batch-normalisation spelling.
-/
import proofs.«121828_j19009525252691_1_alg».proof.Proof.Gen.ReferenceIdeal.Read
import proofs.«121828_j19009525252691_1_alg».proof.Proof.Spec
import proofs.«121828_j19009525252691_1_alg».proof.Proof.LibHostMid3

noncomputable section

open scoped BigOperators

namespace Cert.ReferenceIdeal.RefValue

open Cert.ReferenceIdeal Cert.ReferenceIdeal.Gen Cert.ReferenceIdeal.Read Idealize.ShloMosaic Idealize.ShloMosaic.ValueIdx Cert.Pillar

/-- Row-major positions of a [16000, 100] array split back into their two coordinates. -/
theorem flat_div (n : Fin 16000) (p : Fin 100) : (n.val * 100 + p.val) / 100 = n.val := by have := p.isLt; omega
theorem flat_mod (n : Fin 16000) (p : Fin 100) : (n.val * 100 + p.val) / 1 % 100 = p.val := by have := p.isLt; omega

macro "idx_co" : tactic => `(tactic| (first | rfl | exact Nat.div_one _ | exact flat_div _ _ | exact flat_mod _ _))
/- Two indices of a rank-1 / rank-2 / rank-3 array with the same coordinates are equal. -/
macro "idx1" : tactic => `(tactic| (funext a; apply Fin.ext; match a with | ⟨0, _⟩ => idx_co))
macro "idx2" : tactic => `(tactic| (funext a; apply Fin.ext; match a with | ⟨0, _⟩ => idx_co | ⟨1, _⟩ => idx_co))
macro "idx3" : tactic => `(tactic| (funext a; apply Fin.ext; match a with | ⟨0, _⟩ => idx_co | ⟨1, _⟩ => idx_co | ⟨2, _⟩ => idx_co))

variable (x0 : FVec Ideal S16000x100x4 .f32) (x1 : IVec S16000x3 32) (x2 : IVec S16000 32) (x3 : FVec Ideal S64x9 .f32)
  (x4 x5 x6 x7 : FVec Ideal S64 .f32)

/-- The pillar's mean of feature `j`, as the reference spreads it over a unit point axis. -/
theorem mean_at (n : Fin 16000) (j : Fin 3) :
    val_main_v6 (F := Ideal) x0 x2 (ix3 n 0 j)
      = mean (fun q k => x0 (ix3 n q k)) (FloatOps.sitofp (F := Ideal) .f32 (x2 (ix1 n))) j := by
  simp only [val_main_v6_apply, val_main_v4_apply, val_main_v3_apply, val_main_v2_apply, val_main_v5_apply,
    val_main_v1_apply, val_main_v0_apply, val_main_cst_apply, Ideal.ofBits_def, Ideal.ofBits_zero_f32, zero_add]
  unfold mean
  refine congrArg₂ Ideal.div (Finset.sum_congr rfl fun q _ => congrArg x0 ?_) (congrArg _ (congrArg x2 ?_))
  · idx3
  · idx1

/-- A point's first three features less the pillar's means. -/
theorem cluster_at (n : Fin 16000) (p : Fin 100) (j : Fin 3) :
    val_main_v9 (F := Ideal) x0 x2 (ix3 n p j)
      = x0 (ix3 n p ⟨j.val, by omega⟩) - mean (fun q k => x0 (ix3 n q k)) (FloatOps.sitofp (F := Ideal) .f32 (x2 (ix1 n))) j := by
  rw [val_main_v9_apply, val_main_v7_apply, val_main_v8_apply]
  refine congrArg₂ (· - ·) (congrArg x0 ?_) ((congrArg _ ?_).trans (mean_at x0 x2 n j))
  · idx3
  · idx3

/-- The pillar centre's two coordinates as the reference computes them. -/
theorem centreX_at (n : Fin 16000) :
    val_main_v17 (F := Ideal) x1 (ix2 n 0) = centreX (x1 (ix2 n 2)) := by
  simp only [val_main_v17_apply, val_main_v15_apply, val_main_v13_apply, val_main_v12_apply, val_main_v11_apply,
    val_main_v10_apply, val_main_v14_apply, val_main_v16_apply, val_main_cst_0_apply, val_main_cst_1_apply, Ideal.ofBits_def]
  unfold centreX
  have hn := n.isLt
  refine congrArg₂ (· + ·) (congrArg₂ (· * ·) (congrArg _ (congrArg x1 ?_)) rfl) rfl
  idx2

theorem centreY_at (n : Fin 16000) :
    val_main_v25 (F := Ideal) x1 (ix2 n 0) = centreY (x1 (ix2 n 1)) := by
  simp only [val_main_v25_apply, val_main_v23_apply, val_main_v21_apply, val_main_v20_apply, val_main_v19_apply,
    val_main_v18_apply, val_main_v22_apply, val_main_v24_apply, val_main_cst_2_apply, val_main_cst_3_apply, Ideal.ofBits_def]
  unfold centreY
  have hn := n.isLt
  refine congrArg₂ (· + ·) (congrArg₂ (· * ·) (congrArg _ (congrArg x1 ?_)) rfl) rfl
  idx2

/-- A point's first two features less the centre's coordinates. -/
theorem offX_at (n : Fin 16000) (p : Fin 100) :
    val_main_v34 (F := Ideal) x0 x1 (ix3 n p 0) = x0 (ix3 n p 0) - centreX (x1 (ix2 n 2)) := by
  rw [val_main_v34_apply, val_main_v29_apply, val_main_v27_apply, val_main_v26_apply, val_main_v28_apply]
  have hn := n.isLt; have hp := p.isLt
  refine congrArg₂ (· - ·) (congrArg x0 ?_) ((congrArg _ ?_).trans (centreX_at x1 n))
  · idx3
  · idx2

theorem offY_at (n : Fin 16000) (p : Fin 100) :
    val_main_v35 (F := Ideal) x0 x1 (ix3 n p 0) = x0 (ix3 n p 1) - centreY (x1 (ix2 n 1)) := by
  rw [val_main_v35_apply, val_main_v33_apply, val_main_v31_apply, val_main_v30_apply, val_main_v32_apply]
  have hn := n.isLt; have hp := p.isLt
  refine congrArg₂ (· - ·) (congrArg x0 ?_) ((congrArg _ ?_).trans (centreY_at x1 n))
  · idx3
  · idx2

/-- The mask of a point, by the comparison of integers. -/
theorem mask_at (n : Fin 16000) (p : Fin 100) (k : Fin 9) :
    val_main_v46 (F := Ideal) x2 (ix3 n p k) = maskInt (x2 (ix1 n)) p := by
  simp only [val_main_v46_apply, val_main_v45_apply, val_main_v44_apply, val_main_v43_apply, val_main_v42_apply,
    val_main_v41_apply, val_main_v40_apply, val_main_v39_apply, val_main_v38_apply]
  unfold maskInt
  refine congrArg _ (congrArg₂ _ (congrArg x2 ?_) ?_)
  · idx1
  · rfl

/-- The two centre offsets joined along the channel axis. -/
theorem pair_at (n : Fin 16000) (p : Fin 100) (j : Fin 2) :
    val_main_v36 (F := Ideal) x0 x1 (ix3 n p j)
      = if j.val = 0 then x0 (ix3 n p 0) - centreX (x1 (ix2 n 2)) else x0 (ix3 n p 1) - centreY (x1 (ix2 n 1)) := by
  unfold val_main_v36
  have hj := j.isLt
  by_cases h : j.val = 0
  · rw [if_pos h]
    refine (concatenate_apply_piece (t := S16000x100x2) 2 [⟨S16000x100x1, val_main_v34 (F := Ideal) x0 x1⟩, ⟨S16000x100x1, val_main_v35 (F := Ideal) x0 x1⟩] concatenates_S16000x100x1_S16000x100x1_S16000x100x2_d2
      (ix3 n p j) 0 (by show (0 : ℕ) < 2; omega) S16000x100x1 _ rfl rfl 0 rfl (ix3 n p 0)
      (fun b hb => by match b with | ⟨0, _⟩ => rfl | ⟨1, _⟩ => rfl | ⟨2, _⟩ => exact absurd rfl hb)
      (by show 0 + 0 = j.val; omega)).trans (offX_at x0 x1 n p)
  · rw [if_neg h]
    refine (concatenate_apply_piece (t := S16000x100x2) 2 [⟨S16000x100x1, val_main_v34 (F := Ideal) x0 x1⟩, ⟨S16000x100x1, val_main_v35 (F := Ideal) x0 x1⟩] concatenates_S16000x100x1_S16000x100x1_S16000x100x2_d2
      (ix3 n p j) 1 (by show (1 : ℕ) < 2; omega) S16000x100x1 _ rfl rfl 1 rfl (ix3 n p 0)
      (fun b hb => by match b with | ⟨0, _⟩ => rfl | ⟨1, _⟩ => rfl | ⟨2, _⟩ => exact absurd rfl hb)
      (by show 1 + 0 = j.val; omega)).trans (offY_at x0 x1 n p)

/-- The nine channels of a point, as the reference joins them. -/
theorem chan_at (n : Fin 16000) (p : Fin 100) (k : Fin 9) :
    val_main_v37 (F := Ideal) x0 x1 x2 (ix3 n p k)
      = chan (fun j => x0 (ix3 n p j)) (mean (fun q j => x0 (ix3 n q j)) (FloatOps.sitofp (F := Ideal) .f32 (x2 (ix1 n))))
          (centreX (x1 (ix2 n 2))) (centreY (x1 (ix2 n 1))) k := by
  unfold val_main_v37 chan
  have hk9 := k.isLt
  by_cases h4 : k.val < 4
  · rw [dif_pos h4]
    exact concatenate_apply_piece (t := S16000x100x9) 2 [⟨S16000x100x4, x0⟩, ⟨S16000x100x3, val_main_v9 (F := Ideal) x0 x2⟩, ⟨S16000x100x2, val_main_v36 (F := Ideal) x0 x1⟩] concatenates_S16000x100x4_S16000x100x3_S16000x100x2_S16000x100x9_d2
      (ix3 n p k) 0 (by show (0 : ℕ) < 3; omega) S16000x100x4 x0 rfl rfl 0 rfl (ix3 n p ⟨k.val, h4⟩)
      (fun b hb => by match b with | ⟨0, _⟩ => rfl | ⟨1, _⟩ => rfl | ⟨2, _⟩ => exact absurd rfl hb)
      (by show 0 + k.val = k.val; omega)
  · rw [dif_neg h4]
    by_cases h7 : k.val < 7
    · rw [dif_pos h7]
      exact (concatenate_apply_piece (t := S16000x100x9) 2 [⟨S16000x100x4, x0⟩, ⟨S16000x100x3, val_main_v9 (F := Ideal) x0 x2⟩, ⟨S16000x100x2, val_main_v36 (F := Ideal) x0 x1⟩] concatenates_S16000x100x4_S16000x100x3_S16000x100x2_S16000x100x9_d2
        (ix3 n p k) 1 (by show (1 : ℕ) < 3; omega) S16000x100x3 _ rfl rfl 4 rfl (ix3 n p ⟨k.val - 4, by omega⟩)
        (fun b hb => by match b with | ⟨0, _⟩ => rfl | ⟨1, _⟩ => rfl | ⟨2, _⟩ => exact absurd rfl hb)
        (by show 4 + (k.val - 4) = k.val; omega)).trans (cluster_at x0 x2 n p ⟨k.val - 4, by omega⟩)
    · rw [dif_neg h7]
      refine (concatenate_apply_piece (t := S16000x100x9) 2 [⟨S16000x100x4, x0⟩, ⟨S16000x100x3, val_main_v9 (F := Ideal) x0 x2⟩, ⟨S16000x100x2, val_main_v36 (F := Ideal) x0 x1⟩] concatenates_S16000x100x4_S16000x100x3_S16000x100x2_S16000x100x9_d2
        (ix3 n p k) 2 (by show (2 : ℕ) < 3; omega) S16000x100x2 _ rfl rfl 7 rfl (ix3 n p ⟨k.val - 7, by omega⟩)
        (fun b hb => by match b with | ⟨0, _⟩ => rfl | ⟨1, _⟩ => rfl | ⟨2, _⟩ => exact absurd rfl hb)
        (by show 7 + (k.val - 7) = k.val; omega)).trans ((pair_at x0 x1 n p ⟨k.val - 7, by omega⟩).trans ?_)
      by_cases h : k.val = 7
      · rw [if_pos (show (⟨k.val - 7, by omega⟩ : Fin 2).val = 0 by show k.val - 7 = 0; omega), if_pos h]
      · rw [if_neg (show ¬(⟨k.val - 7, by omega⟩ : Fin 2).val = 0 by show ¬(k.val - 7 = 0); omega), if_neg h]

/-- The contraction of a point's masked channels with the weight row of output channel `u`. -/
theorem lin_at (n : Fin 16000) (p : Fin 100) (u : Fin 64) :
    val_main_v48 (F := Ideal) x0 x1 x2 x3 (ix3 n p u)
      = ∑ k : Fin 9, (chan (fun j => x0 (ix3 n p j)) (mean (fun q j => x0 (ix3 n q j)) (FloatOps.sitofp (F := Ideal) .f32 (x2 (ix1 n))))
          (centreX (x1 (ix2 n 2))) (centreY (x1 (ix2 n 1))) k * maskInt (x2 (ix1 n)) p) * x3 (ix2 u k) := by
  rw [val_main_v48_apply]
  refine Finset.sum_congr rfl fun k _ => ?_
  rw [val_main_v47_apply]
  show (val_main_v37 (F := Ideal) x0 x1 x2 (lidx_main_v48 (ix3 n p u) k) * val_main_v46 (F := Ideal) x2 (lidx_main_v48 (ix3 n p u) k))
      * x3 (ridx_main_v48 (ix3 n p u) k) = _
  rw [show lidx_main_v48 (ix3 n p u) k = ix3 n p k by idx3, show ridx_main_v48 (ix3 n p u) k = ix2 u k by idx2,
    chan_at, mask_at]

/-- The inverse deviation of output channel `u`: the reciprocal square root of its running variance plus 0.001. -/
abbrev invDev (x7 : FVec Ideal S64 .f32) (u : Fin 64) : EReal :=
  Ideal.rsqrt (x7 (ix1 u) + Ideal.ofBits .f32 0x3A83126F#32)

/-- Batch normalisation of the contraction. -/
theorem bn_at (n : Fin 16000) (p : Fin 100) (u : Fin 64) :
    val_main_v63 (F := Ideal) x0 x1 x2 x3 x4 x5 x6 x7 (ix3 n p u)
      = ((val_main_v48 (F := Ideal) x0 x1 x2 x3 (ix3 n p u) - x6 (ix1 u)) * invDev x7 u) * x4 (ix1 u) + x5 (ix1 u) := by
  simp only [val_main_v63_apply, val_main_v60_apply, val_main_v57_apply, val_main_v51_apply, val_main_v50_apply,
    val_main_v49_apply, val_main_v56_apply, val_main_v55_apply, val_main_v54_apply, val_main_v53_apply, val_main_v52_apply,
    val_main_cst_4_apply, val_main_v59_apply, val_main_v58_apply, val_main_v62_apply, val_main_v61_apply,
    Ideal.ofBits_def, Ideal.addf_def, Ideal.subf_def, Ideal.mulf_def, Ideal.hostUnary_rsqrt_def]
  refine congrArg₂ (· + ·) (congrArg₂ (· * ·) (congrArg₂ (· * ·) (congrArg₂ (· - ·) rfl (congrArg x6 ?_))
    (congrArg Ideal.rsqrt (congrArg₂ (· + ·) (congrArg x7 ?_) rfl))) (congrArg x4 ?_)) (congrArg x5 ?_)
  all_goals idx1

/-- THE REFERENCE'S RESULT at pillar `n`, output channel `u`. -/
theorem out_at (n : Fin 16000) (u : Fin 64) :
    val_main_v65 (F := Ideal) x0 x1 x2 x3 x4 x5 x6 x7 (ix2 n u)
      = outNorm (fun p k => x0 (ix3 n p k)) (x2 (ix1 n)) (centreX (x1 (ix2 n 2))) (centreY (x1 (ix2 n 1)))
          (fun k => x3 (ix2 u k)) (x6 (ix1 u)) (invDev x7 u) (x4 (ix1 u)) (x5 (ix1 u)) := by
  unfold val_main_v65 outNorm
  refine (HostMid3.reduce_max_mid_apply _ _ reducesTo_S16000x100x64_S16000x64_d1 (by decide) h_S_ n u).trans ?_
  refine Finset.fold_congr fun p _ => ?_
  rw [val_main_v64_apply, val_main_call0_v0_apply, val_main_call0_cst_apply, bn_at, lin_at]
  rfl

end Cert.ReferenceIdeal.RefValue

end
-- ==== Proof.LibFiniteEntry.lean ====
/-
  An extended real whose absolute value is below +∞ is a real number.

  A precondition "every input is finite" is stated entry by entry as the comparison |x| < +∞, with |x| = max x (−x) and
  +∞ given by its float pattern.  At an infinity the absolute value is +∞ and the comparison fails; so an entry that
  passes it is neither infinity.
-/
import Idealize.ShloMosaic.PureOps.Ideal

noncomputable section

namespace Idealize.ShloMosaic.FiniteEntry

/-- The f32 pattern 0x7F800000 is +∞. -/
theorem pinf_f32 : Ideal.ofBits .f32 0x7F800000#32 = ⊤ := by simp [Ideal.ofBits, Ideal.ieee]

/-- An extended real whose absolute value compares (ordered, less-than) below the pattern of +∞ is a real. -/
theorem real_of_abs_lt_inf (x : EReal) (h : Ideal.cmp .olt (max x (-x)) (Ideal.ofBits .f32 0x7F800000#32) = 1#1) :
    ∃ r : ℝ, x = (r : EReal) := by
  rw [pinf_f32] at h
  change BitVec.ofBool (decide (max x (-x) < (⊤ : EReal))) = 1#1 at h
  have hlt : max x (-x) < (⊤ : EReal) := by
    by_contra hn
    rw [show decide (max x (-x) < (⊤ : EReal)) = false from decide_eq_false hn] at h
    exact absurd h (by decide)
  induction x using EReal.rec with
  | bot => exact absurd hlt (by simp)
  | coe r => exact ⟨r, rfl⟩
  | top => exact absurd hlt (by simp)

end Idealize.ShloMosaic.FiniteEntry

end
-- ==== Proof.Precond.lean ====
/-
  What the precondition says of the batch-norm coefficients: the gain, the offset, the running mean and the running
  variance of every output channel are real numbers, the running variance is not negative, and so the inverse
  deviation — the reciprocal square root of the variance plus the positive constant 0.001 — is a real number too.
-/
import proofs.«121828_j19009525252691_1_alg».proof.Pre_finite_inputs
import proofs.«121828_j19009525252691_1_alg».proof.Proof.LibFiniteEntry
import Idealize.ShloMosaic.PureOps.Ideal.Laws
import Idealize.ShloMosaic.Lib.ValueIdx
import Idealize.ShloMosaic.Lib.ReduceAll

noncomputable section

namespace Cert.Pillar.Precond

open Idealize.ShloMosaic Idealize.ShloMosaic.ValueIdx Cert.Pre_finite_inputs

/-- The constant added to the running variance, 0.001 as its float pattern denotes it, is a positive real. -/
theorem eps_val : Ideal.ofBits .f32 0x3A83126F#32 = ((8589935 / 8589934592 : ℝ) : EReal) := by
  simp [Ideal.ofBits, Ideal.ieee, -EReal.coe_mul]; norm_num

/-- The reciprocal square root of a non-negative real plus a positive real is a real. -/
theorem rsqrt_real (v e : ℝ) (hv : 0 ≤ v) (he : 0 < e) :
    ∃ s : ℝ, Ideal.rsqrt ((v : EReal) + (e : EReal)) = (s : EReal) := by
  rw [← EReal.coe_add]
  refine ⟨(Real.sqrt (v + e))⁻¹, ?_⟩
  show (if v + e < 0 then (⊥ : EReal) else if v + e = 0 then ⊤ else (((Real.sqrt (v + e))⁻¹ : ℝ) : EReal)) = _
  rw [if_neg (by linarith), if_neg (by linarith)]

/-- An extended real that compares (ordered, greater-or-equal) at or above the pattern of zero is not negative. -/
theorem nonneg_of_ge_zero (x : EReal) (h : Ideal.cmp .oge x (Ideal.ofBits .f32 0x00000000#32) = 1#1) : 0 ≤ x := by
  rw [Ideal.ofBits_zero_f32] at h
  change BitVec.ofBool (decide ((0 : EReal) ≤ x)) = 1#1 at h
  by_contra hn
  rw [show decide ((0 : EReal) ≤ x) = false from decide_eq_false hn] at h
  exact absurd h (by decide)

instance : Subsingleton S_.Idx := ⟨fun a b => funext fun d => d.elim0⟩

variable [Facts]

/-- THE PRECONDITION, DECODED for the four per-channel coefficient arrays. -/
theorem coefficients (x0 : FVec Ideal S16000x100x4 .f32) (x1 : IVec S16000x3 32) (x2 : IVec S16000 32)
    (x3 : FVec Ideal S64x9 .f32) (x4 x5 x6 x7 : FVec Ideal S64 .f32)
    (h : fn (F := Ideal) x0 x1 x2 x3 x4 x5 x6 x7 = fun _ => 1#1) (u : Fin 64) :
    (∃ g : ℝ, x4 (ix1 u) = (g : EReal)) ∧ (∃ b : ℝ, x5 (ix1 u) = (b : EReal)) ∧ (∃ r : ℝ, x6 (ix1 u) = (r : EReal))
      ∧ ∃ s : ℝ, Ideal.rsqrt (x7 (ix1 u) + Ideal.ofBits .f32 0x3A83126F#32) = (s : EReal) := by
  have h0 := congrFun h ix0
  unfold fn fn_part1 at h0
  dsimp only at h0
  obtain ⟨h1, hge⟩ := IntOp.andi_eq_one.1 h0
  obtain ⟨h2, hrv⟩ := IntOp.andi_eq_one.1 h1
  obtain ⟨h3, hrm⟩ := IntOp.andi_eq_one.1 h2
  obtain ⟨h4, hbe⟩ := IntOp.andi_eq_one.1 h3
  obtain ⟨h5, hga⟩ := IntOp.andi_eq_one.1 h4
  have ega := FiniteEntry.real_of_abs_lt_inf (x4 (ix1 u)) (Host.reduce_andi_all _ _ _ _ ix0 hga (ix1 u))
  have ebe := FiniteEntry.real_of_abs_lt_inf (x5 (ix1 u)) (Host.reduce_andi_all _ _ _ _ ix0 hbe (ix1 u))
  have erm := FiniteEntry.real_of_abs_lt_inf (x6 (ix1 u)) (Host.reduce_andi_all _ _ _ _ ix0 hrm (ix1 u))
  obtain ⟨v, ev⟩ := FiniteEntry.real_of_abs_lt_inf (x7 (ix1 u)) (Host.reduce_andi_all _ _ _ _ ix0 hrv (ix1 u))
  have hv : 0 ≤ x7 (ix1 u) := nonneg_of_ge_zero _ (Host.reduce_andi_all _ _ _ _ ix0 hge (ix1 u))
  refine ⟨ega, ebe, erm, ?_⟩
  rw [ev, eps_val]
  rw [ev] at hv
  exact rsqrt_real v _ (by exact_mod_cast hv) (by norm_num)

end Cert.Pillar.Precond

end
-- ==== Proof.Bridge.lean ====
/-
  Under the precondition the reference's result, entry by entry, is the pillar layer in its FOLDED spelling: the
  reference computes the batch-normalisation spelling, and the precondition makes the gain, the offset, the running
  mean and the inverse deviation of every output channel real numbers, for which the two spellings agree.
-/
import proofs.«121828_j19009525252691_1_alg».proof.Proof.RefValue
import proofs.«121828_j19009525252691_1_alg».proof.Proof.Precond
import proofs.«121828_j19009525252691_1_alg».proof.Proof.Spec
import proofs.«121828_j19009525252691_1_alg».proof.Proof.Gen.Pre_finite_inputs

noncomputable section

namespace Cert.Pillar.Bridge

open Cert.ReferenceIdeal Cert.ReferenceIdeal.Gen Cert.ReferenceIdeal.Read Idealize.ShloMosaic Idealize.ShloMosaic.ValueIdx Cert.Pillar
open Cert.ReferenceIdeal.RefValue

theorem ref_eq_folded (x0 : FVec Ideal S16000x100x4 .f32) (x1 : IVec S16000x3 32) (x2 : IVec S16000 32)
    (x3 : FVec Ideal S64x9 .f32) (x4 x5 x6 x7 : FVec Ideal S64 .f32)
    (hpre : Cert.Pre_finite_inputs.fn (F := Ideal) x0 x1 x2 x3 x4 x5 x6 x7 = fun _ => 1#1) (i : S16000x64.Idx) :
    val_main_v65 (F := Ideal) x0 x1 x2 x3 x4 x5 x6 x7 i
      = outFolded (fun p k => x0 (ix3 (i 0) p k)) (FloatOps.sitofp (F := Ideal) .f32 (x2 (ix1 (i 0))))
          (centreX (x1 (ix2 (i 0) 2))) (centreY (x1 (ix2 (i 0) 1))) (fun k => x3 (ix2 (i 1) k))
          (x4 (ix1 (i 1)) * invDev x7 (i 1)) (x5 (ix1 (i 1)) - x6 (ix1 (i 1)) * (x4 (ix1 (i 1)) * invDev x7 (i 1))) := by
  refine Eq.trans (Eq.trans (congrArg _ (eq_ix2 i)) (out_at x0 x1 x2 x3 x4 x5 x6 x7 (i 0) (i 1))) ?_
  obtain ⟨⟨g, hg⟩, ⟨b, hb⟩, ⟨r, hr⟩, ⟨s, hs⟩⟩ := Precond.coefficients x0 x1 x2 x3 x4 x5 x6 x7 hpre (i 1)
  rw [show invDev x7 (i 1) = (s : EReal) from hs, hg, hb, hr]
  exact outNorm_eq_outFolded _ _ _ _ _ r s g b

end Cert.Pillar.Bridge

end
-- ==== Proof.lean ====
/-
  The pillar feature layer: a kernel gridded over blocks of 200 pillars against its plain reference, equal as extended
  reals under the precondition (every float input finite; the running variance not negative).

  For each pillar the 100 stored points are augmented from 4 to 9 channels (the features, the first three less their
  mean over the declared point count, the first two less the pillar centre), points at or beyond the declared count
  are zeroed, the channels are contracted with a 64 × 9 weight matrix, batch normalisation and a rectifier follow,
  and the maximum is taken over the points.

  The two programs differ in four ways, none of which changes the value on the extended reals under the precondition:
  the kernel adds the nine products one after the other where the reference contracts (a reordering of one sum);
  it masks by comparing numbers where the reference compares integers (the same comparison); it reduces over the
  last axis of a channel-major block where the reference reduces over the middle axis (the same entries); and it
  multiplies by a folded scale and adds a folded shift, x · (γ·s) + (β − μ·(γ·s)), where the reference computes
  ((x − μ) · s) · γ + β with s the reciprocal square root of the running variance plus 0.001. The last step is a
  distributive law, which on the extended reals needs γ, β, μ and s to be real numbers: γ, β, μ are real because the
  inputs are finite, and s is real because the running variance is a non-negative real, so that its sum with a positive
  constant is positive. The contraction x itself may be any extended real.

  The frames and the kernel's block-by-block run are the generated modules'; the reference's run and its reading at an
  index are generated too. Written by hand: the layer's two spellings and the law joining them (Spec), the kernel body
  read at an index (BodyLayout, BodyValue), the arrays the region finds (Entry), the blocks assembled into the result
  array (Whole), the reference read as the layer (RefValue), the precondition decoded (Precond), and the two sides
  joined (Bridge and below).
-/
import proofs.«121828_j19009525252691_1_alg».proof.Defs
import proofs.«121828_j19009525252691_1_alg».proof.Proof.Gen.Kernel
import proofs.«121828_j19009525252691_1_alg».proof.Proof.Gen.Kernel.Skeleton
import proofs.«121828_j19009525252691_1_alg».proof.Proof.Gen.Kernel.Launch
import proofs.«121828_j19009525252691_1_alg».proof.Proof.Gen.Kernel.Points
import proofs.«121828_j19009525252691_1_alg».proof.Proof.Gen.Kernel.Frame
import proofs.«121828_j19009525252691_1_alg».proof.Proof.Gen.KernelIdeal
import proofs.«121828_j19009525252691_1_alg».proof.Proof.Gen.KernelIdeal.Skeleton
import proofs.«121828_j19009525252691_1_alg».proof.Proof.Gen.KernelIdeal.Launch
import proofs.«121828_j19009525252691_1_alg».proof.Proof.Gen.KernelIdeal.Points
import proofs.«121828_j19009525252691_1_alg».proof.Proof.Gen.KernelIdeal.Frame
import proofs.«121828_j19009525252691_1_alg».proof.Proof.Gen.ReferenceIdeal
import proofs.«121828_j19009525252691_1_alg».proof.Proof.Gen.Pre_finite_inputs
import proofs.«121828_j19009525252691_1_alg».proof.Proof.Gen.KernelIdeal.Value
import proofs.«121828_j19009525252691_1_alg».proof.Proof.Gen.ReferenceIdeal.Run
import proofs.«121828_j19009525252691_1_alg».proof.Proof.Gen.ReferenceIdeal.Read
import Idealize.ShloMosaic.Adequacy
import Idealize.ShloMosaic.Init

import proofs.«121828_j19009525252691_1_alg».proof.Proof.Whole
import proofs.«121828_j19009525252691_1_alg».proof.Proof.Bridge

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing: there is no conjunct to state. -/
theorem preserves : Cert.preserves_Kernel_KernelIdeal := trivial

/-- From memories agreeing on the arguments both programs end with the layer of the arguments in the result array:
    the kernel by its blocks (Whole.run), the reference by its run read at an index and the law joining the layer's
    two spellings (Bridge.ref_eq_folded). -/
theorem algebraic : Cert.algebraic_KernelIdeal_ReferenceIdeal := by
  intro m ρ m' ρ' hpre hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  rw [Cert.ReferenceIdeal.Read.val_main_v65_eq, a0, a1, a2, a3, a4, a5, a6, a7]
  funext i
  exact Cert.Pillar.Bridge.ref_eq_folded _ _ _ _ _ _ _ _ (hpre c) i

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
